-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v27) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S32x512x512x3 : Shape := ⟨4, ![32, 512, 512, 3]⟩
abbrev S_ : Shape := ⟨0, ![]⟩

class Facts : Prop where
  bcast_S_S32x512x512x3 : S_.BroadcastsInDim S32x512x512x3 (![] : Fin 0 → Fin S32x512x512x3.rank)
  reducesTo_S32x512x512x3_S_d0_1_2_3 : S32x512x512x3.ReducesTo [0, 1, 2, 3] S_
  h_S_ : 0 < S_.numel

variable [Facts]

def fn {F : FTy → Type} [FloatOps F] (main_arg0 : FVec F S32x512x512x3 .f32) : IVec S_ 1 :=
  let main_v0 : FVec F S32x512x512x3 .f32 := Host.absf main_arg0
  let main_cst : FVec F S_ .f32 := constant S_ .f32 0x7F800000#32
  let main_v1 : FVec F S32x512x512x3 .f32 := broadcastInDim S32x512x512x3 ![] bcast_S_S32x512x512x3 main_cst
  let main_v2 : IVec S32x512x512x3 1 := cmpf .olt main_v0 main_v1
  let main_c : IVec S_ 1 := constantI S_ 1 1#1
  let main_v3 : IVec S_ 1 := (fun x v => Host.reduce IntOp.andi x v reducesTo_S32x512x512x3_S_d0_1_2_3 h_S_) main_v2 main_c
  main_v3
-- ==== Kernel.lean ====
abbrev S32x512x512x3 : Shape := ⟨4, ![32, 512, 512, 3]⟩
abbrev S32x256x3 : Shape := ⟨3, ![32, 256, 3]⟩
abbrev S1x256x512x3 : Shape := ⟨4, ![1, 256, 512, 3]⟩
abbrev S1x256x3 : Shape := ⟨3, ![1, 256, 3]⟩
abbrev S3x256 : Shape := ⟨2, ![3, 256]⟩
abbrev S256x512x3 : Shape := ⟨3, ![256, 512, 3]⟩
abbrev S1x1x16 : Shape := ⟨3, ![1, 1, 16]⟩
abbrev S256x512x1 : Shape := ⟨3, ![256, 512, 1]⟩
abbrev S256x512 : Shape := ⟨2, ![256, 512]⟩
abbrev S256x512x16 : Shape := ⟨3, ![256, 512, 16]⟩
abbrev S131072x16 : Shape := ⟨2, ![131072, 16]⟩
abbrev S16x16 : Shape := ⟨2, ![16, 16]⟩
abbrev S256 : Shape := ⟨1, ![256]⟩
abbrev S1x256 : Shape := ⟨2, ![1, 256]⟩
abbrev S256x3 : Shape := ⟨2, ![256, 3]⟩

abbrev nBuf : Space → Nat
  | .hbm => 2
  | .vmem => 5
  | .smem => 0
  | _ => 0

abbrev bufTy : (tb : Table) → Fin (tcTables nBuf tb) → BufTy
  | .hbm, ⟨0, _⟩ => ⟨S32x512x512x3, .f32⟩
  | .hbm, ⟨1, _⟩ => ⟨S32x256x3, .f32⟩
  | .local _ .vmem, ⟨0, _⟩ => ⟨S1x256x512x3, .f32⟩
  | .local _ .vmem, ⟨1, _⟩ => ⟨S1x256x512x3, .f32⟩
  | .local _ .vmem, ⟨2, _⟩ => ⟨S1x256x3, .f32⟩
  | .local _ .vmem, ⟨3, _⟩ => ⟨S1x256x3, .f32⟩
  | .local _ .vmem, ⟨4, _⟩ => ⟨S3x256, .f32⟩
  | _, _ => ⟨S32x512x512x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_scratch0 : Ref sig .tc := ⟨.vmem, 4, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨2, ![32, 2], ![false, false]⟩

def k0_cond2 (i : grid0.Coords) : BitVec 1 :=
  let arg1 : BitVec 32 := BitVec.ofNat 32 (i 1).val
  let c1_i32 : BitVec 32 := 1#32
  let v93 : BitVec 1 := Scalar.cmpi .eq arg1 c1_i32
  let v94 : BitVec 32 := Scalar.extui v93
  let c0_i32_12 : BitVec 32 := 0#32
  let v95 : BitVec 1 := Scalar.cmpi .ne v94 c0_i32_12
  v95

def cc0_transform_0 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, arg1.toNat, c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x512x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x256x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

class Facts₀ : Prop where
  inb_S3x256_S3x256_0_0 : ∀ a, (![0, 0] : Fin 2 → Nat) a + S3x256.size a ≤ S3x256.size a
  h_S3x256 : 0 < S3x256.numel
  shapeCasts_S3x256_S3x256 : S3x256.ShapeCasts S3x256
  inb_S1x256x512x3_S1x256x512x3_0_0_0_0 : ∀ a, (![0, 0, 0, 0] : Fin 4 → Nat) a + S1x256x512x3.size a ≤ S1x256x512x3.size a
  h_S1x256x512x3 : 0 < S1x256x512x3.numel
  shapeCasts_S1x256x512x3_S256x512x3 : S1x256x512x3.ShapeCasts S256x512x3
  iota_S1x1x16_d2_w32 : S1x1x16.Iotas .tc 32 [2]
  slices_S256x512x3_o0_0_0_S256x512x1 : S256x512x3.Slices ![0, 0, 0] S256x512x1
  shapeCasts_S256x512x1_S256x512 : S256x512x1.ShapeCasts S256x512
  shapeCasts_S256x512_S256x512x1 : S256x512.ShapeCasts S256x512x1
  broadcasts_S256x512x1_S256x512x16 : S256x512x1.Broadcasts S256x512x16
  broadcasts_S1x1x16_S256x512x16 : S1x1x16.Broadcasts S256x512x16
  natLt_1_32 : 1 < 32
  bitsLt_bf16_f32 : FTy.bits .bf16 < FTy.bits .f32
  shapeCasts_S256x512x16_S131072x16 : S256x512x16.ShapeCasts S131072x16
  shapeCasts_S16x16_S256 : S16x16.ShapeCasts S256
  slices_S256x512x3_o0_0_1_S256x512x1 : S256x512x3.Slices ![0, 0, 1] S256x512x1
  slices_S256x512x3_o0_0_2_S256x512x1 : S256x512x3.Slices ![0, 0, 2] S256x512x1
  shapeCasts_S256_S1x256 : S256.ShapeCasts S1x256
  concatenates_S1x256_S1x256_S1x256_S3x256_d0 : Shape.Concatenates [S1x256, S1x256, S1x256] S3x256 0
  transposes_S3x256_p1_0_S256x3 : S3x256.Transposes [1, 0] S256x3
  inb_S1x256x3_S1x256x3_0_0_0 : ∀ a, (![0, 0, 0] : Fin 3 → Nat) a + S1x256x3.size a ≤ S1x256x3.size a
  h_S1x256x3 : 0 < S1x256x3.numel
  shapeCasts_S1x256x3_S256x3 : S1x256x3.ShapeCasts S256x3
  shapeCasts_S256x3_S1x256x3 : S256x3.ShapeCasts S1x256x3
  dot_S131072x16_S131072x16_S16x16_0_0_1_1_n_n_wf : DotDims.WF S131072x16 S131072x16 S16x16 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x512x3.size a ≤ S32x512x512x3.size a
  hwx0_0 : ∀ i : grid0.Coords, EltTy.bits .f32 = 32 ∨ (Rect.block (s := S32x512x512x3) S1x256x512x3.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x256x3.size a ≤ S32x256x3.size a
  hwx0_1 : ∀ i : grid0.Coords, EltTy.bits .f32 = 32 ∨ (Rect.block (s := S32x256x3) S1x256x3.size (cc0_transform_1 i) (hinb0_1 i)).WholeWords (EltTy.packing .f32)

variable [Facts₀]

def dot_S131072x16_S131072x16_S16x16_0_0_1_1_n_n : DotDims S131072x16 S131072x16 S16x16 where
  lhsContracting := [0]
  rhsContracting := [0]
  lhsNonContracting := [1]
  rhsNonContracting := [1]
  lhsBatch := []
  rhsBatch := []
  wf := dot_S131072x16_S131072x16_S16x16_0_0_1_1_n_n_wf

abbrev win0_0 : Pipeline.Window sig grid0 :=
  Pipeline.Window.ofSpec (Memref.whole main_arg0) S1x256x512x3.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v0) S1x256x3.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

abbrev idle0 : Fin 2 → grid0.Coords → Bool := fun | 0 => fun _ => false | 1 => fun i => !(k0_cond2 i == 1#1) | ⟨_ + 2, h⟩ => absurd h (Nat.not_lt.2 (Nat.le_add_left _ _))

class Facts : Prop extends Facts₀ where

variable [Facts]
-- ==== ReferenceIdeal.lean ====
abbrev S32x512x512x3 : Shape := ⟨4, ![32, 512, 512, 3]⟩
abbrev S_ : Shape := ⟨0, ![]⟩
abbrev S32 : Shape := ⟨1, ![32]⟩
abbrev S32x1x1 : Shape := ⟨3, ![32, 1, 1]⟩
abbrev S3 : Shape := ⟨1, ![3]⟩
abbrev S1x1x3 : Shape := ⟨3, ![1, 1, 3]⟩
abbrev S32x1x3 : Shape := ⟨3, ![32, 1, 3]⟩
abbrev S32x262144x3 : Shape := ⟨3, ![32, 262144, 3]⟩
abbrev S25165824 : Shape := ⟨1, ![25165824]⟩
abbrev S24576 : Shape := ⟨1, ![24576]⟩
abbrev S25165824x1 : Shape := ⟨2, ![25165824, 1]⟩
abbrev S32x3x256 : Shape := ⟨3, ![32, 3, 256]⟩
abbrev S32x256x3 : Shape := ⟨3, ![32, 256, 3]⟩

abbrev nBuf : Space → Nat
  | .hbm => 42
  | .vmem => 0
  | .smem => 0
  | _ => 0

abbrev bufTy : (tb : Table) → Fin (tcTables nBuf tb) → BufTy
  | .hbm, ⟨0, _⟩ => ⟨S32x512x512x3, .f32⟩
  | .hbm, ⟨1, _⟩ => ⟨S_, .f32⟩
  | .hbm, ⟨2, _⟩ => ⟨S32x512x512x3, .f32⟩
  | .hbm, ⟨3, _⟩ => ⟨S32x512x512x3, .f32⟩
  | .hbm, ⟨4, _⟩ => ⟨S32x512x512x3, .f32⟩
  | .hbm, ⟨5, _⟩ => ⟨S32x512x512x3, .i32⟩
  | .hbm, ⟨6, _⟩ => ⟨S_, .i32⟩
  | .hbm, ⟨7, _⟩ => ⟨S_, .i32⟩
  | .hbm, ⟨8, _⟩ => ⟨S_, .i32⟩
  | .hbm, ⟨9, _⟩ => ⟨S32x512x512x3, .i32⟩
  | .hbm, ⟨10, _⟩ => ⟨S32x512x512x3, .i32⟩
  | .hbm, ⟨11, _⟩ => ⟨S_, .i32⟩
  | .hbm, ⟨12, _⟩ => ⟨S32x512x512x3, .i32⟩
  | .hbm, ⟨13, _⟩ => ⟨S32x512x512x3, .i32⟩
  | .hbm, ⟨14, _⟩ => ⟨S32, .i32⟩
  | .hbm, ⟨15, _⟩ => ⟨S32x1x1, .i32⟩
  | .hbm, ⟨16, _⟩ => ⟨S_, .i32⟩
  | .hbm, ⟨17, _⟩ => ⟨S32x1x1, .i32⟩
  | .hbm, ⟨18, _⟩ => ⟨S32x1x1, .i32⟩
  | .hbm, ⟨19, _⟩ => ⟨S3, .i32⟩
  | .hbm, ⟨20, _⟩ => ⟨S1x1x3, .i32⟩
  | .hbm, ⟨21, _⟩ => ⟨S32x1x3, .i32⟩
  | .hbm, ⟨22, _⟩ => ⟨S32x1x3, .i32⟩
  | .hbm, ⟨23, _⟩ => ⟨S32x1x3, .i32⟩
  | .hbm, ⟨24, _⟩ => ⟨S_, .i32⟩
  | .hbm, ⟨25, _⟩ => ⟨S32x1x3, .i32⟩
  | .hbm, ⟨26, _⟩ => ⟨S32x1x3, .i32⟩
  | .hbm, ⟨27, _⟩ => ⟨S32x262144x3, .i32⟩
  | .hbm, ⟨28, _⟩ => ⟨S32x262144x3, .i32⟩
  | .hbm, ⟨29, _⟩ => ⟨S32x262144x3, .i32⟩
  | .hbm, ⟨30, _⟩ => ⟨S25165824, .i32⟩
  | .hbm, ⟨31, _⟩ => ⟨S_, .f32⟩
  | .hbm, ⟨32, _⟩ => ⟨S25165824, .f32⟩
  | .hbm, ⟨33, _⟩ => ⟨S_, .f32⟩
  | .hbm, ⟨34, _⟩ => ⟨S24576, .f32⟩
  | .hbm, ⟨35, _⟩ => ⟨S25165824x1, .i32⟩
  | .hbm, ⟨36, _⟩ => ⟨S24576, .f32⟩
  | .hbm, ⟨37, _⟩ => ⟨S32x3x256, .f32⟩
  | .hbm, ⟨38, _⟩ => ⟨S_, .f32⟩
  | .hbm, ⟨39, _⟩ => ⟨S32x3x256, .f32⟩
  | .hbm, ⟨40, _⟩ => ⟨S32x3x256, .f32⟩
  | .hbm, ⟨41, _⟩ => ⟨S32x256x3, .f32⟩
  | _, _ => ⟨S32x512x512x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_c_0 : Ref sig .tc := ⟨.hbm, 7, rfl⟩
abbrev main_call0_v0 : Ref sig .tc := ⟨.hbm, 8, rfl⟩
abbrev main_call0_v1 : Ref sig .tc := ⟨.hbm, 9, rfl⟩
abbrev main_call0_v2 : Ref sig .tc := ⟨.hbm, 10, rfl⟩
abbrev main_call0_v3 : Ref sig .tc := ⟨.hbm, 11, rfl⟩
abbrev main_call0_v4 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_c_1 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_c_2 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_cst_3 : Ref sig .tc := ⟨.hbm, 31, rfl⟩
abbrev main_v20 : Ref sig .tc := ⟨.hbm, 32, rfl⟩
abbrev main_cst_4 : Ref sig .tc := ⟨.hbm, 33, rfl⟩
abbrev main_v21 : Ref sig .tc := ⟨.hbm, 34, rfl⟩
abbrev main_v22 : Ref sig .tc := ⟨.hbm, 35, rfl⟩
abbrev main_v23 : Ref sig .tc := ⟨.hbm, 36, rfl⟩
abbrev main_v24 : Ref sig .tc := ⟨.hbm, 37, rfl⟩
abbrev main_cst_5 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩

abbrev nD : Nat := 1
abbrev τ : Topo := Topo.v7x

variable {F : FTy → Type} [FloatOps F]

class Facts₀ : Prop where
  bcast_S_S32x512x512x3 : S_.BroadcastsInDim S32x512x512x3 (![] : Fin 0 → Fin S32x512x512x3.rank)
  bcast_S32_S32x1x1_0 : S32.BroadcastsInDim S32x1x1 (![0] : Fin 1 → Fin S32x1x1.rank)
  bcast_S_S32x1x1 : S_.BroadcastsInDim S32x1x1 (![] : Fin 0 → Fin S32x1x1.rank)
  bcast_S3_S1x1x3_2 : S3.BroadcastsInDim S1x1x3 (![2] : Fin 1 → Fin S1x1x3.rank)
  bcast_S32x1x1_S32x1x3_0_1_2 : S32x1x1.BroadcastsInDim S32x1x3 (![0, 1, 2] : Fin 3 → Fin S32x1x3.rank)
  bcast_S1x1x3_S32x1x3_0_1_2 : S1x1x3.BroadcastsInDim S32x1x3 (![0, 1, 2] : Fin 3 → Fin S32x1x3.rank)
  bcast_S_S32x1x3 : S_.BroadcastsInDim S32x1x3 (![] : Fin 0 → Fin S32x1x3.rank)
  shapeCasts_S32x512x512x3_S32x262144x3 : S32x512x512x3.ShapeCasts S32x262144x3
  bcast_S32x1x3_S32x262144x3_0_1_2 : S32x1x3.BroadcastsInDim S32x262144x3 (![0, 1, 2] : Fin 3 → Fin S32x262144x3.rank)
  shapeCasts_S32x262144x3_S25165824 : S32x262144x3.ShapeCasts S25165824
  bcast_S_S25165824 : S_.BroadcastsInDim S25165824 (![] : Fin 0 → Fin S25165824.rank)
  bcast_S_S24576 : S_.BroadcastsInDim S24576 (![] : Fin 0 → Fin S24576.rank)
  bcast_S25165824_S25165824x1_0 : S25165824.BroadcastsInDim S25165824x1 (![0] : Fin 1 → Fin S25165824x1.rank)
  shapeCasts_S24576_S32x3x256 : S24576.ShapeCasts S32x3x256
  bcast_S_S32x3x256 : S_.BroadcastsInDim S32x3x256 (![] : Fin 0 → Fin S32x3x256.rank)
  transposes_S32x3x256_S32x256x3_0_2_1 : S32x3x256.Transposes [0, 2, 1] S32x256x3
  scatter_S24576_S25165824x1_S25165824_n_0_0_1_wf : ScatterDims.WF S24576 S25165824x1 S25165824 [] [0] [0] 1

variable [Facts₀]

def scatter_S24576_S25165824x1_S25165824_n_0_0_1 : ScatterDims S24576 S25165824x1 S25165824 where
  updateWindowDims := []
  insertedWindowDims := [0]
  scatterDimsToOperandDims := [0]
  indexVectorDim := 1
  wf := scatter_S24576_S25165824x1_S25165824_n_0_0_1_wf

class Facts : Prop extends Facts₀ where

variable [Facts]
-- ==== Proof.Pieces.lean ====
/-
  What one grid point leaves behind, as pure terms of what it loaded.

  A grid point (b, h) loads its block of the images — rows 256·h … 256·h + 255 of image b, all columns and channels — and
  the 3 × 256 table of running counts. It adds the block's counts to the table (`step`); at h = 0 the table it adds to is
  the zero table it has just stored, at h = 1 it is the table the point before left. At h = 1 it also writes the output
  block: the updated table scaled and transposed. Each of these is the one store that covers its buffer, so the buffer
  read back is that store's value.
-/
import proofs.«162160_j31250182045884_2_alg».proof.Proof.Gen.KernelIdeal.Frame
import Idealize.ShloMosaic.Lib.Pipeline.Value
import Idealize.ShloMosaic.Lib.Tactic

noncomputable section

open Idealize.ShloMosaic Idealize.ShloMosaic.TcCoe Idealize.SL.Sem
open Idealize.ShloMosaic.Pipeline (Dat)

namespace Cert.KernelIdeal.Pieces

open Cert.KernelIdeal Cert.KernelIdeal.Gen

variable {F : FTy → Type} [FloatOps F]

theorem hz2 : (![0, 0] : Fin 2 → Nat) = fun _ => 0 := funext fun a => by fin_cases a <;> rfl
theorem hz3 : (![0, 0, 0] : Fin 3 → Nat) = fun _ => 0 := funext fun a => by fin_cases a <;> rfl
theorem hz4 : (![0, 0, 0, 0] : Fin 4 → Nat) = fun _ => 0 := funext fun a => by fin_cases a <;> rfl

/-- The table of counts after a point: the table `acc` it found plus the counts of the block `x0`, channel by channel. -/
def step (x0 : Vec F S1x256x512x3 .f32) (acc : Vec F S3x256 .f32) : FVec F S3x256 .f32 :=
  k0_pay9 (k0_pay4 x0) (k0_pay5 x0) (iota .tc S1x1x16 32 [2] iota_S1x1x16_d2_w32) (k0_pay6 x0) (k0_pay7 x0) (k0_pay8 x0) acc

/-- At a point with h = 1 the table ends as the table the point before left plus this block's counts. -/
theorem sout_B (c : Dev nD) (i : grid0.Coords) (arg2 : Memref sig .tc .vmem S1x256x512x3 .f32) (harg2 : arg2.IsWhole)
    (arg3 : Memref sig .tc .vmem S1x256x3 .f32) (harg3 : arg3.IsWhole) (arg4 : Memref sig .tc .vmem S3x256 .f32) (harg4 : arg4.IsWhole)
    (hc0 : ¬cond0_0 i) (hc1 : cond0_1 i) (x0 : Vec F S1x256x512x3 .f32) (xs0 : Vec F S3x256 .f32) :
    sout0_B_0 c i arg2 harg2 arg3 harg3 arg4 harg4 hc0 hc1 x0 xs0 = step x0 xs0 := by
  unfold sout0_B_0
  rw [View.read_writes_eq_canon _ _ _ (scover0_B_0 c i arg2 harg2 arg3 harg3 arg4 harg4 hc0 hc1 x0 xs0)]
  unfold kernelRun0_B
  dsimp only
  sl_unfold_words
  rw [View.canon_unit_zero hz2]
  simp only [View.readAt_eq_ld, harg2.read_unread, harg4.read_unread, View.ld_unit_zero (S := S1x256x512x3) hz4,
    View.ld_unit_zero (S := S3x256) hz2]
  rfl

/-- At a point with h = 1 the output block is the updated table, scaled and transposed. -/
theorem out_B (c : Dev nD) (i : grid0.Coords) (arg2 : Memref sig .tc .vmem S1x256x512x3 .f32) (harg2 : arg2.IsWhole)
    (arg3 : Memref sig .tc .vmem S1x256x3 .f32) (harg3 : arg3.IsWhole) (arg4 : Memref sig .tc .vmem S3x256 .f32) (harg4 : arg4.IsWhole)
    (hc0 : ¬cond0_0 i) (hc1 : cond0_1 i) (x0 : Vec F S1x256x512x3 .f32) (xs0 : Vec F S3x256 .f32) :
    out0_B_1 c i arg2 harg2 arg3 harg3 arg4 harg4 hc0 hc1 x0 xs0 = k0_pay1 (step x0 xs0) := by
  unfold out0_B_1
  rw [View.read_writes_eq_canon _ _ _ (cover0_B_1 c i arg2 harg2 arg3 harg3 arg4 harg4 hc0 hc1 x0 xs0)]
  unfold kernelRun0_B
  dsimp only
  sl_unfold_words
  rw [View.canon_unit_zero hz3, View.readCov_unit_zero (S := S3x256) _ hz2]
  simp only [View.readAt_eq_ld, harg2.read_unread, harg4.read_unread, View.ld_unit_zero (S := S1x256x512x3) hz4,
    View.ld_unit_zero (S := S3x256) hz2]
  rfl

/-- At a point with h = 0 the table ends as the zero table plus this block's counts: the zero table is stored first and
    read back, and the later store of the sum is the one that stays. -/
theorem sout_A (c : Dev nD) (i : grid0.Coords) (arg2 : Memref sig .tc .vmem S1x256x512x3 .f32) (harg2 : arg2.IsWhole)
    (arg3 : Memref sig .tc .vmem S1x256x3 .f32) (harg3 : arg3.IsWhole) (arg4 : Memref sig .tc .vmem S3x256 .f32) (harg4 : arg4.IsWhole)
    (hc0 : cond0_0 i) (hc1 : ¬cond0_1 i) (x0 : Vec F S1x256x512x3 .f32) :
    sout0_A_0 c i arg2 harg2 arg3 harg3 arg4 harg4 hc0 hc1 x0 = step x0 (k0_pay2 (F := F)) := by
  unfold sout0_A_0
  rw [View.read_writes_eq_canon _ _ _ (scover0_A_0 c i arg2 harg2 arg3 harg3 arg4 harg4 hc0 hc1 x0)]
  unfold kernelRun0_A
  dsimp only
  sl_unfold_words
  rw [View.canon_cons_unit_zero (S := S3x256) hz2, View.readCov_unit_zero (S := S3x256) _ hz2]
  simp only [View.readAt_eq_ld, harg2.read_unread, View.ld_unit_zero (S := S1x256x512x3) hz4]
  rfl

end Cert.KernelIdeal.Pieces

end
-- ==== Proof.LibDotAxis0.lean ====
/-
  A matrix product that contracts the FIRST axis of both operands, read at one entry.

  For `x : K × M` and `y : K × N` the product with dimension numbers "contract axis 0 of the left with axis 0 of the right, keep
  axis 1 of each" is the `M × N` array of inner products of COLUMNS: entry `(p, q)` is `∑ k, x[k, p] · y[k, q]` (the transpose of
  the left operand times the right). Over the extended reals, accumulated into the zero array, that is the whole statement
  (`matmul_axis0_apply`); the work is only to identify the product's own operand indices — computed from the dimension numbers —
  with the coordinate pairs `(k, p)` and `(k, q)`, and its one-axis contraction index with the coordinate `k`.
-/
import Idealize.ShloMosaic.PureOps.Ideal.Laws
import Idealize.ShloMosaic.Lib.ValueIdx

noncomputable section

open scoped BigOperators

namespace Cert.Lib.DotAxis0

open Idealize.ShloMosaic Idealize.ShloMosaic.ValueIdx

/-- The dimension numbers: `K×M` by `K×N`, each contracted on its first axis, the result `M×N`. -/
def dims (K M N : Nat) : DotDims ⟨2, ![K, M]⟩ ⟨2, ![K, N]⟩ ⟨2, ![M, N]⟩ where
  lhsContracting := [0]
  rhsContracting := [0]
  lhsNonContracting := [1]
  rhsNonContracting := [1]
  lhsBatch := []
  rhsBatch := []
  wf := ⟨rfl, by simp, rfl, by simp, by simp, by simp, by simpa [List.finRange] using List.Perm.swap 0 1 [],
    by simpa [List.finRange] using List.Perm.swap 0 1 [], rfl, Nat.two_pos, fun b => by fin_cases b <;> rfl⟩

variable {K M N : Nat}

/-- The left operand's kept axis 1 follows the output's axis 0, whatever the contraction index. -/
theorem lhs_axis1 (i : (⟨2, ![M, N]⟩ : Shape).Idx) (c : (dims K M N).contr.Idx) :
    ((dims K M N).lhsIdx i c 1).val = (i 0).val := by
  unfold DotDims.lhsIdx
  rw [dif_neg (show ¬(1 : Fin (⟨2, ![K, M]⟩ : Shape).rank) ∈ (dims K M N).lhsBatch from List.not_mem_nil),
    dif_pos (show (1 : Fin (⟨2, ![K, M]⟩ : Shape).rank) ∈ (dims K M N).lhsNonContracting from List.mem_cons_self)]
  rfl

/-- The right operand's kept axis 1 follows the output's axis 1. -/
theorem rhs_axis1 (i : (⟨2, ![M, N]⟩ : Shape).Idx) (c : (dims K M N).contr.Idx) :
    ((dims K M N).rhsIdx i c 1).val = (i 1).val := by
  unfold DotDims.rhsIdx
  rw [dif_neg (show ¬(1 : Fin (⟨2, ![K, N]⟩ : Shape).rank) ∈ (dims K M N).rhsBatch from List.not_mem_nil),
    dif_pos (show (1 : Fin (⟨2, ![K, N]⟩ : Shape).rank) ∈ (dims K M N).rhsNonContracting from List.mem_cons_self)]
  rfl

/-- Each operand's contracted axis 0 follows the contraction index's one coordinate. -/
theorem lhs_axis0 (i : (⟨2, ![M, N]⟩ : Shape).Idx) (c : (dims K M N).contr.Idx) :
    ((dims K M N).lhsIdx i c 0).val = (c ⟨0, Nat.zero_lt_one⟩).val :=
  (dims K M N).lhsIdx_val_of_single rfl i c
theorem rhs_axis0 (i : (⟨2, ![M, N]⟩ : Shape).Idx) (c : (dims K M N).contr.Idx) :
    ((dims K M N).rhsIdx i c 0).val = (c ⟨0, Nat.zero_lt_one⟩).val :=
  (dims K M N).rhsIdx_val_of_single rfl i c

/-- So at output entry `(p, q)` and contraction coordinate `k` the left operand is read at `(k, p)` … -/
theorem lhsIdx_axis0 (p : Fin M) (q : Fin N) (k : Fin K) :
    (dims K M N).lhsIdx (ix2 p q) ((contrEquiv1 (dims K M N) K rfl rfl).symm k) = ix2 k p :=
  funext fun a => Fin.ext (by
    match a with
    | ⟨0, _⟩ => exact (lhs_axis0 _ _).trans (contrEquiv1_symm_val (dims K M N) K rfl rfl k)
    | ⟨1, _⟩ => exact lhs_axis1 _ _)

/-- … and the right operand at `(k, q)`. -/
theorem rhsIdx_axis0 (p : Fin M) (q : Fin N) (k : Fin K) :
    (dims K M N).rhsIdx (ix2 p q) ((contrEquiv1 (dims K M N) K rfl rfl).symm k) = ix2 k q :=
  funext fun a => Fin.ext (by
    match a with
    | ⟨0, _⟩ => exact (rhs_axis0 _ _).trans (contrEquiv1_symm_val (dims K M N) K rfl rfl k)
    | ⟨1, _⟩ => exact rhs_axis1 _ _)

/-- THE PRODUCT OF COLUMNS AT AN ENTRY. Over the extended reals, a matrix product with these dimension numbers (any record `D`
    that spells them: `hD`), accumulated into the zero array, holds at `(p, q)` the inner product of column `p` of the left
    operand and column `q` of the right: `∑ k, x[k, p] · y[k, q]`. -/
theorem matmul_axis0_apply {φ₁ φ₂ : FTy} (D : DotDims ⟨2, ![K, M]⟩ ⟨2, ![K, N]⟩ ⟨2, ![M, N]⟩) (hD : D = dims K M N)
    (prec : Option ContractPrecision) (x : FVec Ideal ⟨2, ![K, M]⟩ φ₁) (y : FVec Ideal ⟨2, ![K, N]⟩ φ₂) (p : Fin M) (q : Fin N) :
    FloatOps.matmul D prec x y (constant ⟨2, ![M, N]⟩ .f32 0x00000000#32) (ix2 p q) = ∑ k : Fin K, x (ix2 k p) * y (ix2 k q) := by
  subst hD
  rw [Ideal.matmul_constant_zero_apply, ← Equiv.sum_comp (contrEquiv1 (dims K M N) K rfl rfl).symm]
  refine Finset.sum_congr rfl fun k _ => ?_
  rw [lhsIdx_axis0, rhsIdx_axis0]

end Cert.Lib.DotAxis0

end
-- ==== Proof.OneHot.lean ====
/-
  One block's counts, read entry by entry.

  A block is 256 rows of 512 pixels with 3 channels. For one channel the body takes the high and the low nibble of every
  pixel's bin, as two columns of 131072 = 256·512 words in row-major order, and turns each column into 131072 rows of 16
  zeros and ones: row n has its one at the nibble's value. The 16 × 16 product of the two arrays, contracting the pixel
  axis, counts at (h, l) the pixels whose high nibble is h and whose low nibble is l; flattened, entry 16·h + l. The three
  channels' rows are stacked and added to the table of running counts.
-/
import proofs.«162160_j31250182045884_2_alg».proof.Proof.Pieces
import proofs.«162160_j31250182045884_2_alg».proof.Proof.LibDotAxis0
import Idealize.ShloMosaic.Lib.Pipeline.Value
import Idealize.ShloMosaic.Lib.ValueIdx
import Idealize.ShloMosaic.PureOps.Ideal.Laws

noncomputable section

open Idealize.ShloMosaic Idealize.ShloMosaic.TcCoe Idealize.ShloMosaic.ValueIdx

namespace Cert.KernelIdeal.OneHot

open Cert.KernelIdeal Cert.KernelIdeal.Gen

variable {F : FTy → Type} [FloatOps F]

/-- The lane numbers 0 … 15 along the last axis. -/
abbrev lanes : IVec S1x1x16 32 := iota .tc S1x1x16 32 [2] iota_S1x1x16_d2_w32

/-- One channel of a block of words, as a column: entry (r, w, 0) is the block's entry (r, w, c) when the offset is (0, 0, c). -/
def col (off : Fin 3 → Nat) (h : S256x512x3.Slices off S256x512x1) (v : IVec S256x512x3 32) : IVec S256x512x1 32 :=
  shapeCast S256x512x1 (shapeCast S256x512 (extractStridedSlice S256x512x1 off v h) shapeCasts_S256x512x1_S256x512)
    shapeCasts_S256x512_S256x512x1

/-- The rows of zeros and ones of a column of nibbles: row n = 512·r + w has a one in lane `v (r, w)`. -/
def oneHot (v : IVec S256x512x1 32) : FVec F S131072x16 .bf16 :=
  shapeCast S131072x16
    (truncf .bf16
      (sitofp .f32 (extui 32 (cmpi .eq (broadcastTo S256x512x16 v broadcasts_S256x512x1_S256x512x16)
        (broadcastTo S256x512x16 lanes broadcasts_S1x1x16_S256x512x16)) natLt_1_32) : FVec F S256x512x16 .f32)
      bitsLt_bf16_f32)
    shapeCasts_S256x512x16_S131072x16

/-- One channel's row of 256 counts: the product of the two arrays of zeros and ones over the pixel axis, flattened. -/
def contrib (hi lo : IVec S256x512x1 32) : FVec F S1x256 .f32 :=
  shapeCast S1x256
    (shapeCast S256
      (matmul dot_S131072x16_S131072x16_S16x16_0_0_1_1_n_n none (oneHot (F := F) hi) (oneHot (F := F) lo)
        (constant S16x16 .f32 0x00000000#32))
      shapeCasts_S16x16_S256)
    shapeCasts_S256_S1x256

/-- The three channels' rows, stacked. -/
def contribs (hi lo : IVec S256x512x3 32) : FVec F S3x256 .f32 :=
  concatenate S3x256 0
    [⟨S1x256, contrib (F := F) (col ![0, 0, 0] slices_S256x512x3_o0_0_0_S256x512x1 hi) (col ![0, 0, 0] slices_S256x512x3_o0_0_0_S256x512x1 lo)⟩,
     ⟨S1x256, contrib (F := F) (col ![0, 0, 1] slices_S256x512x3_o0_0_1_S256x512x1 hi) (col ![0, 0, 1] slices_S256x512x3_o0_0_1_S256x512x1 lo)⟩,
     ⟨S1x256, contrib (F := F) (col ![0, 0, 2] slices_S256x512x3_o0_0_2_S256x512x1 hi) (col ![0, 0, 2] slices_S256x512x3_o0_0_2_S256x512x1 lo)⟩]
    concatenates_S1x256_S1x256_S1x256_S3x256_d0

/-- The table after a point is the table it found plus the block's stacked rows of counts. -/
theorem step_eq (x0 : Vec F S1x256x512x3 .f32) (acc : Vec F S3x256 .f32) :
    Pieces.step x0 acc = addf acc (contribs (F := F) (k0_pay4 x0) (k0_pay5 x0)) := by
  have h : Pieces.step x0 acc
      = shapeCast S3x256 (addf acc (contribs (F := F) (k0_pay4 x0) (k0_pay5 x0))) shapeCasts_S3x256_S3x256 := rfl
  rw [h, shapeCast_self]

/-! ## Read at an entry, on the extended reals -/

/-- A column's entry (r, w) is the block's entry (r, w, c). -/
theorem col_apply (c : Fin 3) (h : S256x512x3.Slices ![0, 0, c.val] S256x512x1) (v : IVec S256x512x3 32)
    (r : Fin 256) (w : Fin 512) :
    col ![0, 0, c.val] h v (ix3 r w (0 : Fin 1)) = v (ix3 r w c) := by
  unfold col
  refine (shapeCast_apply _ _ (ix3 r w (0 : Fin 1)) (ix2 r w) ?_).trans ?_
  · rw [Shape.rowMajor_val_two, Shape.rowMajor_val_three]
    show r.val * 512 + w.val = (r.val * 512 + w.val) * 1 + 0
    omega
  refine (shapeCast_apply _ _ (ix2 r w) (ix3 r w (0 : Fin 1)) ?_).trans ?_
  · rw [Shape.rowMajor_val_two, Shape.rowMajor_val_three]
    show (r.val * 512 + w.val) * 1 + 0 = r.val * 512 + w.val
    omega
  exact extractStridedSlice_apply _ v h (ix3 r w (0 : Fin 1)) (ix3 r w c) fun a => by
    match a with
    | ⟨0, _⟩ => show r.val = 0 + r.val; omega
    | ⟨1, _⟩ => show w.val = 0 + w.val; omega
    | ⟨2, _⟩ => show c.val = c.val + 0; omega

/-- Row n, lane h of the zeros and ones of a column: the comparison of the column's entry n with h, as a float. -/
theorem oneHot_apply (v : IVec S256x512x1 32) (n : Fin 131072) (h : Fin 16) :
    oneHot (F := Ideal) v (ix2 n h)
      = FloatOps.sitofp (F := Ideal) .f32
          ((IntOp.cmpi .eq (v (ix3 (⟨n.val / 512, by have := n.isLt; omega⟩ : Fin 256) (⟨n.val % 512, by omega⟩ : Fin 512) (0 : Fin 1)))
            (BitVec.ofNat 32 h.val)).setWidth 32) := by
  unfold oneHot
  refine (shapeCast_apply _ _ (ix2 n h)
    (ix3 (⟨n.val / 512, by have := n.isLt; omega⟩ : Fin 256) (⟨n.val % 512, by omega⟩ : Fin 512) h) ?_).trans ?_
  · rw [Shape.rowMajor_val_two, Shape.rowMajor_val_three]
    show (n.val / 512 * 512 + n.val % 512) * 16 + h.val = n.val * 16 + h.val
    omega
  have e1 : broadcastTo S256x512x16 v broadcasts_S256x512x1_S256x512x16
        (ix3 (⟨n.val / 512, by have := n.isLt; omega⟩ : Fin 256) (⟨n.val % 512, by omega⟩ : Fin 512) h)
      = v (ix3 (⟨n.val / 512, by have := n.isLt; omega⟩ : Fin 256) (⟨n.val % 512, by omega⟩ : Fin 512) (0 : Fin 1)) :=
    broadcastTo_apply v _ _ _ fun a => by
      match a with
      | ⟨0, _⟩ => rfl
      | ⟨1, _⟩ => rfl
      | ⟨2, _⟩ => rfl
  have e2 : broadcastTo S256x512x16 lanes broadcasts_S1x1x16_S256x512x16
        (ix3 (⟨n.val / 512, by have := n.isLt; omega⟩ : Fin 256) (⟨n.val % 512, by omega⟩ : Fin 512) h)
      = BitVec.ofNat 32 h.val :=
    (broadcastTo_apply lanes _ _ (ix3 (0 : Fin 1) (0 : Fin 1) h) fun a => by
      match a with
      | ⟨0, _⟩ => rfl
      | ⟨1, _⟩ => rfl
      | ⟨2, _⟩ => rfl).trans (iota_single_apply .tc S1x1x16 32 2 _ _)
  show FloatOps.sitofp (F := Ideal) .f32 ((IntOp.cmpi .eq (broadcastTo S256x512x16 v _ _) (broadcastTo S256x512x16 lanes _ _)).setWidth 32) = _
  rw [e1, e2]

/-- Entry k of one channel's row of counts: over the pixels, the product of the high nibble's lane k / 16 and the low
    nibble's lane k % 16. -/
theorem contrib_apply (hi lo : IVec S256x512x1 32) (k : Fin 256) :
    contrib (F := Ideal) hi lo (ix2 (0 : Fin 1) k)
      = ∑ n : Fin 131072, oneHot (F := Ideal) hi (ix2 n (⟨k.val / 16, by have := k.isLt; omega⟩ : Fin 16))
          * oneHot (F := Ideal) lo (ix2 n (⟨k.val % 16, by omega⟩ : Fin 16)) := by
  unfold contrib
  refine (shapeCast_apply _ _ (ix2 (0 : Fin 1) k) (ix1 k) ?_).trans ?_
  · rw [Shape.rowMajor_val_one, Shape.rowMajor_val_two]
    show k.val = 0 * 256 + k.val
    omega
  refine (shapeCast_apply _ _ (ix1 k) (ix2 (⟨k.val / 16, by have := k.isLt; omega⟩ : Fin 16) (⟨k.val % 16, by omega⟩ : Fin 16)) ?_).trans ?_
  · rw [Shape.rowMajor_val_one, Shape.rowMajor_val_two]
    show k.val / 16 * 16 + k.val % 16 = k.val
    omega
  exact Cert.Lib.DotAxis0.matmul_axis0_apply _ rfl none _ _ _ _

end Cert.KernelIdeal.OneHot

end
-- ==== Proof.Spec.lean ====
/-
  The normalised histogram, entry by entry, as one function of the input array.

  A pixel value `v` falls in bin `⌊256·v⌋`, read as a 32-bit integer and clamped into `[0, 255]`. For image `b` and
  channel `c`, `count` is the number of the image's 512·512 pixels whose channel-`c` value falls in bin `k`, as a sum
  of 0/1 terms over the pixels in row-major order; the histogram entry `(b, k, c)` is that count times `2⁻¹⁸`, which is
  the count divided by the number of pixels `2¹⁸`.
-/
import Idealize.ShloMosaic.PureOps.Ideal
import Idealize.ShloMosaic.Lib.ValueIdx

noncomputable section

namespace Cert.Hist

open Idealize.ShloMosaic Idealize.ShloMosaic.ValueIdx

/-- The images: 32 of 512 × 512 pixels with 3 channels. -/
abbrev SIn : Shape := ⟨4, ![32, 512, 512, 3]⟩
/-- The histograms: per image, 256 bins by 3 channels. -/
abbrev SOut : Shape := ⟨3, ![32, 256, 3]⟩

/-- The bin of a value: `⌊256·v⌋` as a 32-bit integer, clamped into `[0, 255]`. -/
def bin (v : EReal) : BitVec 32 :=
  IntOp.minsi 255#32 (IntOp.maxsi 0#32
    (FloatOps.fptosi (F := Ideal) (φ := .f32) 32
      (FloatOps.floor (F := Ideal) (φ := .f32)
        (FloatOps.mulf (F := Ideal) (φ := .f32) v (FloatOps.ofBits (F := Ideal) .f32 0x43800000#32)))))

/-- `1` when the bin word is the number `k`, else `0`. -/
def hit (w : BitVec 32) (k : ℕ) : EReal := if w = BitVec.ofNat 32 k then 1 else 0

/-- Pixel `n` (row-major: row `n / 512`, column `n % 512`) of image `b`, channel `c`. -/
def pix (x : FVec Ideal SIn .f32) (b : Fin 32) (n : Fin 262144) (c : Fin 3) : EReal :=
  x (ix4 b ⟨n.val / 512, by have := n.isLt; omega⟩ ⟨n.val % 512, by omega⟩ c)

/-- How many pixels of image `b` have their channel-`c` value in bin `k`. -/
def count (x : FVec Ideal SIn .f32) (b : Fin 32) (c : Fin 3) (k : ℕ) : EReal :=
  ∑ n : Fin 262144, hit (bin (pix x b n c)) k

/-- The normalised histogram: entry `(b, k, c)` is the count times `2⁻¹⁸`. -/
def hist (x : FVec Ideal SIn .f32) : FVec Ideal SOut .f32 :=
  fun i => count x (i 0) (i 2) (i 1).val * Ideal.ofBits .f32 0x36800000#32

theorem hist_apply (x : FVec Ideal SIn .f32) (b : Fin 32) (k : Fin 256) (c : Fin 3) :
    hist x (ix3 b k c) = count x b c k.val * Ideal.ofBits .f32 0x36800000#32 := rfl

/-- The word `0x48800000` is the real `2¹⁸ = 262144`. -/
theorem ofBits_pixels : Ideal.ofBits .f32 0x48800000#32 = ((262144 : ℝ) : EReal) := by
  simp [Ideal.ofBits, Ideal.ieee, -EReal.coe_mul]; norm_num

/-- The word `0x36800000` is the real `2⁻¹⁸ = 1 / 262144`. -/
theorem ofBits_inv_pixels : Ideal.ofBits .f32 0x36800000#32 = ((1 / 262144 : ℝ) : EReal) := by
  simp [Ideal.ofBits, Ideal.ieee, -EReal.coe_mul]; norm_num

/-- Dividing by the number of pixels is multiplying by its reciprocal, on every extended real. -/
theorem div_pixels (v : EReal) :
    Ideal.div v (Ideal.ofBits .f32 0x48800000#32) = v * Ideal.ofBits .f32 0x36800000#32 := by
  rw [ofBits_pixels, ofBits_inv_pixels, Ideal.div_coe (by norm_num : (262144 : ℝ) ≠ 0)]

end Cert.Hist

end
-- ==== Proof.Bits.lean ====
/-
  Bit-level and 0/1-indicator facts about the bin index.

  The bin of a value is a 32-bit word clamped into [0, 255]. Such a word is determined by its two 4-bit nibbles
  (the word shifted right by 4, and the word masked with 15): the word is the number 16·h + l exactly when the high
  nibble is h and the low nibble is l. Hence the product of the two nibble indicators is the indicator of the bin.
-/
import proofs.«162160_j31250182045884_2_alg».proof.Proof.Spec
import Idealize.ShloMosaic.PureOps.Ideal
import Mathlib.Tactic

noncomputable section

namespace Cert.Hist

open Idealize.ShloMosaic

/-- A one-hot entry: the comparison bit of two words, widened to 32 bits and read as a float, is 1 when they are
    equal and 0 otherwise. -/
theorem onehot_eq (a b : BitVec 32) :
    FloatOps.sitofp (F := Ideal) .f32 ((IntOp.cmpi .eq a b).setWidth 32) = if a = b then (1 : EReal) else 0 := by
  show ((((IntOp.cmpi .eq a b).setWidth 32).toInt : ℝ) : EReal) = _
  by_cases h : a = b
  · subst h
    have e : (IntOp.cmpi .eq a a).setWidth 32 = 1#32 := by simp [IntOp.cmpi]
    rw [e, if_pos rfl]
    have : (1#32).toInt = 1 := by decide
    rw [this]; norm_num
  · have hb : (a == b) = false := by simpa using h
    have e : (IntOp.cmpi .eq a b).setWidth 32 = 0#32 := by simp [IntOp.cmpi, hb]
    rw [e, if_neg h]
    have : (0#32).toInt = 0 := by decide
    rw [this]; norm_num

/-- Clamping any word into [0, 255] (signed maximum with 0, then signed minimum with 255) gives a word whose
    unsigned reading is below 256. -/
theorem clamp_lt (z : BitVec 32) : (IntOp.minsi 255#32 (IntOp.maxsi 0#32 z)).toNat < 256 := by
  have hz := z.isLt
  have h0 : (0#32).toInt = 0 := by decide
  have h255 : (255#32).toInt = 255 := by decide
  have hzi := BitVec.toInt_eq_toNat_cond z
  unfold IntOp.minsi IntOp.maxsi
  by_cases h1 : z.slt 0#32
  · simp only [if_pos h1]
    decide
  · simp only [if_neg h1]
    by_cases h2 : (255#32).slt z
    · rw [if_pos h2]; decide
    · rw [if_neg h2]
      rw [BitVec.slt_iff_toInt_lt] at h1 h2
      rw [h0] at h1; rw [h255] at h2
      split_ifs at hzi <;> omega

/-- A bin index lies in [0, 255]. -/
theorem bin_lt (v : EReal) : (bin v).toNat < 256 := clamp_lt _

/-- For a word below 256, shifting right by 4 (arithmetically) reads as the quotient by 16. -/
theorem shr4_toNat (w : BitVec 32) (hw : w.toNat < 256) :
    (IntOp.shrsi .vector w 4#32).toNat = w.toNat / 16 := by
  have hmsb : w.msb = false := by
    rw [BitVec.msb_eq_false_iff_two_mul_lt]; omega
  have h4 : (4#32).toNat = 4 := by decide
  unfold IntOp.shrsi
  rw [if_pos (by rw [h4]; omega), BitVec.toNat_sshiftRight'_of_msb_false hmsb, h4, Nat.shiftRight_eq_div_pow]

/-- Masking a word with 15 reads as the remainder modulo 16. -/
theorem and15_toNat (w : BitVec 32) : (IntOp.andi w 15#32).toNat = w.toNat % 16 := by
  have h15 : (15#32).toNat = 2 ^ 4 - 1 := by decide
  unfold IntOp.andi
  rw [BitVec.toNat_and, h15, Nat.and_two_pow_sub_one_eq_mod]

/-- The two nibbles determine a word below 256. -/
theorem nibbles_iff_word (w : BitVec 32) (hw : w.toNat < 256) (h l : Fin 16) :
    (IntOp.shrsi .vector w 4#32 = BitVec.ofNat 32 h.val ∧ IntOp.andi w 15#32 = BitVec.ofNat 32 l.val)
      ↔ w = BitVec.ofNat 32 (16 * h.val + l.val) := by
  have hh := h.isLt
  have hl := l.isLt
  rw [← BitVec.toNat_inj, ← BitVec.toNat_inj, ← BitVec.toNat_inj, shr4_toNat w hw, and15_toNat,
    BitVec.toNat_ofNat, BitVec.toNat_ofNat, BitVec.toNat_ofNat,
    Nat.mod_eq_of_lt (by omega : h.val < 2 ^ 32), Nat.mod_eq_of_lt (by omega : l.val < 2 ^ 32),
    Nat.mod_eq_of_lt (by omega : 16 * h.val + l.val < 2 ^ 32)]
  omega

/-- The two nibbles determine the bin: for h, l < 16, (bin >> 4 = h and bin & 15 = l) exactly when
    bin = 16·h + l. -/
theorem nibbles_iff (v : EReal) (h l : Fin 16) :
    (IntOp.shrsi .vector (bin v) 4#32 = BitVec.ofNat 32 h.val ∧ IntOp.andi (bin v) 15#32 = BitVec.ofNat 32 l.val)
      ↔ bin v = BitVec.ofNat 32 (16 * h.val + l.val) :=
  nibbles_iff_word (bin v) (bin_lt v) h l

/-- The product of the two one-hot entries is the indicator of the bin. -/
theorem onehot_mul (v : EReal) (h l : Fin 16) :
    (if IntOp.shrsi .vector (bin v) 4#32 = BitVec.ofNat 32 h.val then (1 : EReal) else 0)
      * (if IntOp.andi (bin v) 15#32 = BitVec.ofNat 32 l.val then (1 : EReal) else 0)
    = hit (bin v) (16 * h.val + l.val) := by
  unfold hit
  by_cases h1 : IntOp.shrsi .vector (bin v) 4#32 = BitVec.ofNat 32 h.val
  · by_cases h2 : IntOp.andi (bin v) 15#32 = BitVec.ofNat 32 l.val
    · rw [if_pos h1, if_pos h2, if_pos ((nibbles_iff v h l).mp ⟨h1, h2⟩), one_mul]
    · rw [if_pos h1, if_neg h2, if_neg (fun e => h2 ((nibbles_iff v h l).mpr e).2), mul_zero]
  · rw [if_neg h1, if_neg (fun e => h1 ((nibbles_iff v h l).mpr e).1), zero_mul]

end Cert.Hist

end
-- ==== Proof.BlockCount.lean ====
/-
  One block's counts are counts of bins.

  Every pixel of the block gets its bin (`Cert.Hist.bin`); the body keeps the bin's high nibble `bin >> 4` and low nibble
  `bin & 15`. The product of the two nibbles' zero-or-one entries at lanes (h, l) is one exactly when the bin is 16·h + l,
  because a bin lies in [0, 255]. So entry k of a channel's row — lanes (k / 16, k % 16) summed over the block's 131072
  pixels — is the number of the block's pixels whose bin is k, and a point adds that number to the table.
-/
import proofs.«162160_j31250182045884_2_alg».proof.Proof.OneHot
import proofs.«162160_j31250182045884_2_alg».proof.Proof.Bits
import proofs.«162160_j31250182045884_2_alg».proof.Proof.Spec

noncomputable section

open Idealize.ShloMosaic Idealize.ShloMosaic.TcCoe Idealize.ShloMosaic.ValueIdx

namespace Cert.KernelIdeal.BlockCount

open Cert.KernelIdeal Cert.KernelIdeal.Gen Cert.KernelIdeal.OneHot Cert.Hist

/-- The bin of the block's pixel (r, w), channel c. -/
theorem pay3_apply (x0 : Vec Ideal S1x256x512x3 .f32) (r : Fin 256) (w : Fin 512) (c : Fin 3) :
    k0_pay3 (F := Ideal) x0 (ix3 r w c) = bin (x0 (ix4 (0 : Fin 1) r w c)) := by
  have e : shapeCast S256x512x3 x0 shapeCasts_S1x256x512x3_S256x512x3 (ix3 r w c) = x0 (ix4 (0 : Fin 1) r w c) :=
    shapeCast_apply x0 _ (ix3 r w c) (ix4 (0 : Fin 1) r w c) (by
      rw [Shape.rowMajor_val_three, Shape.rowMajor_val_four]
      show ((0 * 256 + r.val) * 512 + w.val) * 3 + c.val = (r.val * 512 + w.val) * 3 + c.val
      omega)
  show IntOp.minsi 255#32 (IntOp.maxsi 0#32 (FloatOps.fptosi (F := Ideal) (φ := .f32) 32 (FloatOps.floor (F := Ideal) (φ := .f32)
    (FloatOps.mulf (F := Ideal) (φ := .f32) (shapeCast S256x512x3 x0 shapeCasts_S1x256x512x3_S256x512x3 (ix3 r w c))
      (FloatOps.ofBits (F := Ideal) .f32 0x43800000#32))))) = _
  rw [e]
  rfl

/-- Its high nibble. -/
theorem pay4_apply (x0 : Vec Ideal S1x256x512x3 .f32) (r : Fin 256) (w : Fin 512) (c : Fin 3) :
    k0_pay4 (F := Ideal) x0 (ix3 r w c) = IntOp.shrsi .vector (bin (x0 (ix4 (0 : Fin 1) r w c))) 4#32 := by
  show IntOp.shrsi .vector (k0_pay3 (F := Ideal) x0 (ix3 r w c)) 4#32 = _
  rw [pay3_apply]

/-- Its low nibble. -/
theorem pay5_apply (x0 : Vec Ideal S1x256x512x3 .f32) (r : Fin 256) (w : Fin 512) (c : Fin 3) :
    k0_pay5 (F := Ideal) x0 (ix3 r w c) = IntOp.andi (bin (x0 (ix4 (0 : Fin 1) r w c))) 15#32 := by
  show IntOp.andi (k0_pay3 (F := Ideal) x0 (ix3 r w c)) 15#32 = _
  rw [pay3_apply]

/-- How many of the block's 131072 pixels (row-major: row n / 512, column n % 512) have their channel-c value in bin k. -/
def blockCount (x0 : Vec Ideal S1x256x512x3 .f32) (c : Fin 3) (k : ℕ) : EReal :=
  ∑ n : Fin 131072, hit (bin (x0 (ix4 (0 : Fin 1) (⟨n.val / 512, by have := n.isLt; omega⟩ : Fin 256)
    (⟨n.val % 512, by omega⟩ : Fin 512) c))) k

/-- At one pixel (R, W) of channel c, the product of the high nibble's lane k / 16 and the low nibble's lane k % 16 is one
    exactly when the pixel's bin is k. -/
theorem lanes_mul (c : Fin 3) (h : S256x512x3.Slices ![0, 0, c.val] S256x512x1) (x0 : Vec Ideal S1x256x512x3 .f32)
    (k : Fin 256) (R : Fin 256) (W : Fin 512) :
    FloatOps.sitofp (F := Ideal) .f32
        ((IntOp.cmpi .eq (col ![0, 0, c.val] h (k0_pay4 x0) (ix3 R W (0 : Fin 1))) (BitVec.ofNat 32 (k.val / 16))).setWidth 32)
      * FloatOps.sitofp (F := Ideal) .f32
        ((IntOp.cmpi .eq (col ![0, 0, c.val] h (k0_pay5 x0) (ix3 R W (0 : Fin 1))) (BitVec.ofNat 32 (k.val % 16))).setWidth 32)
      = hit (bin (x0 (ix4 (0 : Fin 1) R W c))) k.val := by
  rw [col_apply, col_apply, pay4_apply, pay5_apply, onehot_eq, onehot_eq]
  have hk := onehot_mul (x0 (ix4 (0 : Fin 1) R W c)) (⟨k.val / 16, by have := k.isLt; omega⟩ : Fin 16)
    (⟨k.val % 16, by omega⟩ : Fin 16)
  exact hk.trans (congrArg (hit _) (by show 16 * (k.val / 16) + k.val % 16 = k.val; omega))

/-- One channel's row of counts, entry k: the block's count for bin k. -/
theorem chan_apply (c : Fin 3) (h : S256x512x3.Slices ![0, 0, c.val] S256x512x1) (x0 : Vec Ideal S1x256x512x3 .f32)
    (k : Fin 256) :
    contrib (F := Ideal) (col ![0, 0, c.val] h (k0_pay4 x0)) (col ![0, 0, c.val] h (k0_pay5 x0)) (ix2 (0 : Fin 1) k)
      = blockCount x0 c k.val :=
  (contrib_apply _ _ k).trans (Finset.sum_congr rfl fun n _ =>
    (congrArg₂ (· * ·) (oneHot_apply _ n _) (oneHot_apply _ n _)).trans (lanes_mul c h x0 k _ _))

/-- Three rows stacked: entry (c, k) of the stack is entry k of row c. -/
theorem stack3_apply {α : Type} (f0 f1 f2 : S1x256.Idx → α)
    (h : Shape.Concatenates ([(⟨S1x256, f0⟩ : (s : Shape) × (s.Idx → α)), ⟨S1x256, f1⟩, ⟨S1x256, f2⟩].map (·.1)) S3x256 0)
    (k : Fin 256) :
    concatenate S3x256 0 [⟨S1x256, f0⟩, ⟨S1x256, f1⟩, ⟨S1x256, f2⟩] h (ix2 (0 : Fin 3) k) = f0 (ix2 (0 : Fin 1) k)
    ∧ concatenate S3x256 0 [⟨S1x256, f0⟩, ⟨S1x256, f1⟩, ⟨S1x256, f2⟩] h (ix2 (1 : Fin 3) k) = f1 (ix2 (0 : Fin 1) k)
    ∧ concatenate S3x256 0 [⟨S1x256, f0⟩, ⟨S1x256, f1⟩, ⟨S1x256, f2⟩] h (ix2 (2 : Fin 3) k) = f2 (ix2 (0 : Fin 1) k) := by
  refine ⟨?_, ?_, ?_⟩
  · exact concatenate_apply_piece (0 : Fin 2) _ h (ix2 (0 : Fin 3) k) 0 (by simp) S1x256 f0 rfl rfl 0 rfl (ix2 (0 : Fin 1) k)
      (fun b hb => by match b with | ⟨0, _⟩ => exact absurd rfl hb | ⟨1, _⟩ => rfl) rfl
  · exact concatenate_apply_piece (0 : Fin 2) _ h (ix2 (1 : Fin 3) k) 1 (by simp) S1x256 f1 rfl rfl 1 rfl (ix2 (0 : Fin 1) k)
      (fun b hb => by match b with | ⟨0, _⟩ => exact absurd rfl hb | ⟨1, _⟩ => rfl) rfl
  · exact concatenate_apply_piece (0 : Fin 2) _ h (ix2 (2 : Fin 3) k) 2 (by simp) S1x256 f2 rfl rfl 2 rfl (ix2 (0 : Fin 1) k)
      (fun b hb => by match b with | ⟨0, _⟩ => exact absurd rfl hb | ⟨1, _⟩ => rfl) rfl

/-- The stacked rows, entry (c, k): channel c's count for bin k. -/
theorem contribs_apply (x0 : Vec Ideal S1x256x512x3 .f32) (c : Fin 3) (k : Fin 256) :
    contribs (F := Ideal) (k0_pay4 x0) (k0_pay5 x0) (ix2 c k) = blockCount x0 c k.val := by
  have hs := stack3_apply
    (contrib (F := Ideal) (col ![0, 0, 0] slices_S256x512x3_o0_0_0_S256x512x1 (k0_pay4 x0)) (col ![0, 0, 0] slices_S256x512x3_o0_0_0_S256x512x1 (k0_pay5 x0)))
    (contrib (F := Ideal) (col ![0, 0, 1] slices_S256x512x3_o0_0_1_S256x512x1 (k0_pay4 x0)) (col ![0, 0, 1] slices_S256x512x3_o0_0_1_S256x512x1 (k0_pay5 x0)))
    (contrib (F := Ideal) (col ![0, 0, 2] slices_S256x512x3_o0_0_2_S256x512x1 (k0_pay4 x0)) (col ![0, 0, 2] slices_S256x512x3_o0_0_2_S256x512x1 (k0_pay5 x0)))
    concatenates_S1x256_S1x256_S1x256_S3x256_d0 k
  match c with
  | ⟨0, _⟩ => exact hs.1.trans (chan_apply (0 : Fin 3) slices_S256x512x3_o0_0_0_S256x512x1 x0 k)
  | ⟨1, _⟩ => exact hs.2.1.trans (chan_apply (1 : Fin 3) slices_S256x512x3_o0_0_1_S256x512x1 x0 k)
  | ⟨2, _⟩ => exact hs.2.2.trans (chan_apply (2 : Fin 3) slices_S256x512x3_o0_0_2_S256x512x1 x0 k)

/-- A point adds the block's counts to the table: entry (c, k) grows by channel c's count for bin k. -/
theorem step_apply (x0 : Vec Ideal S1x256x512x3 .f32) (acc : Vec Ideal S3x256 .f32) (c : Fin 3) (k : Fin 256) :
    Pieces.step (F := Ideal) x0 acc (ix2 c k) = acc (ix2 c k) + blockCount x0 c k.val := by
  rw [step_eq]
  show acc (ix2 c k) + contribs (F := Ideal) (k0_pay4 x0) (k0_pay5 x0) (ix2 c k) = _
  rw [contribs_apply]

end Cert.KernelIdeal.BlockCount

end
-- ==== Proof.Tail.lean ====
/-
  The kernel's two small payloads read at an index, and a sum split into two halves.

  The output block is the table scaled by the constant word, transposed, and given a leading unit axis: its entry
  (0, k, c) is the table's entry (c, k) times the constant. The second payload is the table of zeros. A sum over
  262144 = 131072 + 131072 terms is the sum over the first half plus the sum over the second half.
-/
import proofs.«162160_j31250182045884_2_alg».proof.Proof.Gen.KernelIdeal.Skeleton
import Idealize.ShloMosaic.Lib.Pipeline.Value
import Idealize.ShloMosaic.Lib.ValueIdx
import Idealize.ShloMosaic.Lib.ValueLayout
import Idealize.ShloMosaic.PureOps.Ideal.Laws

noncomputable section

namespace Cert.KernelIdeal.Tail

open Idealize.ShloMosaic Idealize.ShloMosaic.TcCoe Idealize.ShloMosaic.ValueIdx Cert.KernelIdeal Cert.KernelIdeal.Gen

/-- The output block: entry (0, k, c) is the table's entry (c, k) times the word 0x36800000 (scaling, then a
    transpose, then a leading unit axis). -/
theorem pay1_apply (v : Vec Ideal S3x256 .f32) (k : Fin 256) (c : Fin 3) :
    k0_pay1 (F := Ideal) v (ix3 (0 : Fin 1) k c) = v (ix2 c k) * Ideal.ofBits .f32 0x36800000#32 := by
  unfold k0_pay1
  refine (shapeCast_ab_1ab_apply _ _ 0 k c).trans ?_
  refine (transpose_ix2_apply _ _ k c).trans ?_
  rfl

/-- The zero table. -/
theorem pay2_apply (c : Fin 3) (k : Fin 256) : k0_pay2 (F := Ideal) (ix2 c k) = 0 := by
  unfold k0_pay2
  rw [shapeCast_self]
  exact Ideal.ofBits_zero_f32

/-- A sum over 262144 = 2·131072 terms is the sum of its two halves. -/
theorem sum_halves {M : Type*} [AddCommMonoid M] (f : Fin 262144 → M) :
    ∑ n : Fin 262144, f n = (∑ m : Fin 131072, f ⟨m.val, by have := m.isLt; omega⟩)
      + ∑ m : Fin 131072, f ⟨131072 + m.val, by have := m.isLt; omega⟩ := by
  have h := Fin.sum_univ_add (M := M) (a := 131072) (b := 131072) (fun i => f i)
  exact h

end Cert.KernelIdeal.Tail

end
-- ==== Proof.Windows.lean ====
/-
  From blocks to the array.

  The grid has 64 points; point t has coordinates (t / 2, t % 2). The input window's block at point t is the half
  image (rows 256·(t % 2) … 256·(t % 2) + 255) of image t / 2. The output window's block at point t is row t / 2 of
  the output array, and it is written back exactly at the odd points. So if, at every odd point t, what the body
  leaves in the output block is row t / 2 of one whole-array function G, then after the run the output array is G:
  row b is covered by the odd point 2·b + 1.
-/
import proofs.«162160_j31250182045884_2_alg».proof.Proof.Gen.KernelIdeal.Value
import Idealize.ShloMosaic.Lib.Pipeline.Value
import Idealize.ShloMosaic.Lib.ValueIdx

noncomputable section

namespace Cert.KernelIdeal.Windows

open Cert.KernelIdeal Cert.KernelIdeal.Gen Idealize.ShloMosaic Idealize.ShloMosaic.TcCoe Idealize.SL.Sem
open Idealize.ShloMosaic.ValueIdx
open Idealize.ShloMosaic.Pipeline (Dat)

variable {F : FTy → Type} [FloatOps F]
variable (m : (ℓ : Loc nD τ sig) → Buf (Elt F) ℓ)

/-- A point of the grid is below 64. -/
theorem point_lt (t : Fin cfg0.N) : t.val < 64 := lt_of_lt_of_eq t.isLt (show cfg0.N = 64 from N_0)

/-- The input window's block index at point t is (t / 2, t % 2, 0, 0), decided over the grid. -/
theorem index_in : ∀ t : Fin cfg0.N, win0_0.index t (0 : Fin 4) = t.val / 2 ∧ win0_0.index t (1 : Fin 4) = t.val % 2
    ∧ win0_0.index t (2 : Fin 4) = 0 ∧ win0_0.index t (3 : Fin 4) = 0 :=
  (by decide +kernel : ∀ t : Fin grid0.N, _)

/-- The output window's block index at point t is (t / 2, 0, 0), decided over the grid. -/
theorem index_out : ∀ t : Fin cfg0.N, win0_1.index t (0 : Fin 3) = t.val / 2 ∧ win0_1.index t (1 : Fin 3) = 0
    ∧ win0_1.index t (2 : Fin 3) = 0 :=
  (by decide +kernel : ∀ t : Fin grid0.N, _)

/-- The input block at point t, entry (0, r, w, ch), is the array's entry (t / 2, 256·(t % 2) + r, w, ch). -/
theorem iblk_apply (c : Dev nD) (t : Fin cfg0.N) (r : Fin 256) (w : Fin 512) (ch : Fin 3) :
    (iblk m c 0 t : Vec F S1x256x512x3 .f32) (ix4 (0 : Fin 1) r w ch)
      = (V m c main_arg0 : S32x512x512x3.Idx → Elt F .f32)
          (ix4 (⟨t.val / 2, by have := point_lt t; omega⟩ : Fin 32)
            (⟨256 * (t.val % 2) + r.val, by have := r.isLt; omega⟩ : Fin 512) w ch) := by
  obtain ⟨e0, e1, e2, e3⟩ := index_in t
  unfold iblk
  rw [View.read_apply]
  show V m c main_arg0 _ = V m c main_arg0 _
  congr 1
  funext a
  apply Fin.ext
  match a with
  | ⟨0, _⟩ => show win0_0.index t 0 * 1 + 1 * 0 = t.val / 2; rw [e0]; omega
  | ⟨1, _⟩ => show win0_0.index t 1 * 256 + 1 * r.val = 256 * (t.val % 2) + r.val; rw [e1]; omega
  | ⟨2, _⟩ => show win0_0.index t 2 * 512 + 1 * w.val = w.val; rw [e2]; omega
  | ⟨3, _⟩ => show win0_0.index t 3 * 3 + 1 * ch.val = ch.val; rw [e3]; omega

/-- At region entry the input array is the launch contents. -/
theorem V_in (c : Dev nD) : V m c main_arg0 = m ((c : Thread nD τ).loc main_arg0) := rfl

/-- A block whose entries (0, k, ch) are the entries (b, k, ch) of an array function reads, at any of its indices, the
    array function at the index with first coordinate b and the same last two coordinates. -/
theorem row_read (X : Vec F S1x256x3 .f32) (G : S32x256x3.Idx → Elt F .f32) (b : Fin 32)
    (h : ∀ (k : Fin 256) (ch : Fin 3), X (ix3 (0 : Fin 1) k ch) = G (ix3 b k ch))
    (y : S1x256x3.Idx) (i : S32x256x3.Idx)
    (h0 : (i 0).val = b.val) (h1 : (i 1).val = (y 1).val) (h2 : (i 2).val = (y 2).val) : X y = G i := by
  have hy : y = ix3 (0 : Fin 1) (y 1) (y 2) := by
    funext a
    match a with
    | ⟨0, _⟩ => exact Fin.ext (by have h : (y 0).val < 1 := (y 0).isLt; show (y 0).val = 0; omega)
    | ⟨1, _⟩ => rfl
    | ⟨2, _⟩ => rfl
  have hi : i = ix3 b (y 1) (y 2) := by
    funext a
    match a with
    | ⟨0, _⟩ => exact Fin.ext h0
    | ⟨1, _⟩ => exact Fin.ext h1
    | ⟨2, _⟩ => exact Fin.ext h2
  rw [hy, hi]
  exact h (y 1) (y 2)

/-- What a flushing point writes back is its block of G. -/
theorem flushed_eq (c : Dev nD) (G : Buf (Elt F) ((c : Thread nD τ).loc main_v0))
    (hG : ∀ (t : Fin cfg0.N), t.val % 2 = 1 → ∀ (k : Fin 256) (ch : Fin 3),
      (outsAt0 m c t.val t.isLt).1 (ix3 (0 : Fin 1) k ch)
        = (G : S32x256x3.Idx → Elt F .f32) (ix3 (⟨t.val / 2, by have := point_lt t; omega⟩ : Fin 32) k ch))
    (t : Fin cfg0.N) (hf : (cfg0.win 1).flush t = true) :
    (dats m 0 c).flushed 1 t = ((cfg0.win 1).blk t).view.read (Elt F) G := by
  have ht : t.val % 2 = 1 := (flush0_1 t).mp hf
  obtain ⟨e0, e1, e2⟩ := index_out t
  rw [Value.flushed1]
  funext y
  rw [View.read_apply]
  refine row_read (outsAt0 m c t.val t.isLt).1 G ⟨t.val / 2, by have := point_lt t; omega⟩ (hG t ht)
    ((cfg0.win 1).xinj (grid0.coords t) y) (((cfg0.win 1).blk t).view.emb y) ?_ ?_ ?_
  · show win0_1.index t 0 * 1 + 1 * (y 0).val = t.val / 2
    have h : (y 0).val < 1 := (y 0).isLt
    rw [e0]; omega
  · show win0_1.index t 1 * 256 + 1 * (y 1).val = (y 1).val
    rw [e1]; omega
  · show win0_1.index t 2 * 3 + 1 * (y 2).val = (y 2).val
    rw [e2]; omega

/-- An index of the output array is in point t's block iff each coordinate is in the block's range on its axis. -/
theorem mem_blk (t : Fin cfg0.N) (i : S32x256x3.Idx) :
    i ∈ ((cfg0.win 1).blk t).view.set ↔ ∀ a : Fin 3, win0_1.index t a * S1x256x3.size a ≤ (i a).val
      ∧ (i a).val < win0_1.index t a * S1x256x3.size a + S1x256x3.size a := by
  show i ∈ ((View.whole main_v0).slice (win0_1.rect t)).set ↔ _
  rw [View.set_slice_whole, Rect.mem_set_unit]
  exact Iff.rfl

/-- Every index of the output array is in the block of a flushing point: row b is covered by the point 2·b + 1. -/
theorem cover (i : S32x256x3.Idx) :
    ∃ t : Fin cfg0.N, (cfg0.win 1).flush t = true ∧ i ∈ ((cfg0.win 1).blk t).view.set := by
  have h0 : (i 0).val < 32 := (i 0).isLt
  have h1 : (i 1).val < 256 := (i 1).isLt
  have h2 : (i 2).val < 3 := (i 2).isLt
  have hlt : 2 * (i 0).val + 1 < cfg0.N := lt_of_lt_of_eq (by omega : 2 * (i 0).val + 1 < 64) (show cfg0.N = 64 from N_0).symm
  refine ⟨⟨2 * (i 0).val + 1, hlt⟩, (flush0_1 _).mpr (by show (2 * (i 0).val + 1) % 2 = 1; omega), ?_⟩
  obtain ⟨e0, e1, e2⟩ := index_out ⟨2 * (i 0).val + 1, hlt⟩
  have e0' : win0_1.index ⟨2 * (i 0).val + 1, hlt⟩ 0 = (2 * (i 0).val + 1) / 2 := e0
  rw [mem_blk]
  intro a
  match a with
  | ⟨0, _⟩ =>
    show win0_1.index ⟨2 * (i 0).val + 1, hlt⟩ 0 * 1 ≤ (i 0).val ∧ (i 0).val < win0_1.index ⟨2 * (i 0).val + 1, hlt⟩ 0 * 1 + 1
    rw [e0']; omega
  | ⟨1, _⟩ =>
    show win0_1.index ⟨2 * (i 0).val + 1, hlt⟩ 1 * 256 ≤ (i 1).val ∧ (i 1).val < win0_1.index ⟨2 * (i 0).val + 1, hlt⟩ 1 * 256 + 256
    rw [e1]; omega
  | ⟨2, _⟩ =>
    show win0_1.index ⟨2 * (i 0).val + 1, hlt⟩ 2 * 3 ≤ (i 2).val ∧ (i 2).val < win0_1.index ⟨2 * (i 0).val + 1, hlt⟩ 2 * 3 + 3
    rw [e2]; omega

/-- If at every point with t % 2 = 1 the output block the body leaves agrees entry by entry with row t / 2 of a
    whole-array function G, then after the run the output array is G. -/
theorem final_of (c : Dev nD) (G : Buf (Elt F) ((c : Thread nD τ).loc main_v0))
    (hG : ∀ (t : Fin cfg0.N), t.val % 2 = 1 → ∀ (k : Fin 256) (ch : Fin 3),
      (outsAt0 m c t.val t.isLt).1 (ix3 (0 : Fin 1) k ch)
        = (G : S32x256x3.Idx → Elt F .f32) (ix3 (⟨t.val / 2, by have := point_lt t; omega⟩ : Fin 32) k ch)) :
    (dats m 0 c).arrAt 1 cfg0.N = G :=
  (dats m 0 c).arrAt_eq_of_cover 1 G (fun t hf => flushed_eq m c G hG t hf) cover

/-- The run with the output array named G. -/
theorem run_of (ρ : Dev nD → PrngReg) (G : (c : Dev nD) → Buf (Elt F) ((c : Thread nD τ).loc main_v0))
    (hfin : ∀ c, (dats m 0 c).arrAt 1 cfg0.N = G c) :
    θ_run defs (onTc (τ := τ) (main (F := F))) ⟨m, fun _ => 0, ρ⟩ fun r => ∀ c : Dev nD,
      r.2.mem ((c : Thread nD τ).loc main_v0) = G c
      ∧ r.2.mem ((c : Thread nD τ).loc main_arg0) = m ((c : Thread nD τ).loc main_arg0) :=
  (θ_run defs _ _).mono (fun r h c => ⟨(h c).1.trans (hfin c), (h c).2⟩) (Value.run_blocks m ρ)

end Cert.KernelIdeal.Windows

end
-- ==== Proof.KernelValue.lean ====
/-
  The kernel's result array is the normalised histogram.

  Image b is handled by the two consecutive grid points t = 2b (rows 0 … 255) and t = 2b + 1 (rows 256 … 511). The first
  leaves in the table of counts the zero table plus its block's counts; the second adds its own block's counts and writes
  the output block: the table times 2⁻¹⁸, transposed. A block's pixel n (row-major over 256 × 512) is the image's pixel
  131072·h + n, so the two blocks' counts are the two halves of the sum over the image's 262144 pixels, and the output
  block of point 2b + 1 is row b of the histogram. The output blocks of the odd points tile the result array.
-/
import proofs.«162160_j31250182045884_2_alg».proof.Proof.BlockCount
import proofs.«162160_j31250182045884_2_alg».proof.Proof.Tail
import proofs.«162160_j31250182045884_2_alg».proof.Proof.Windows
import proofs.«162160_j31250182045884_2_alg».proof.Proof.Spec

noncomputable section

open Idealize.ShloMosaic Idealize.ShloMosaic.TcCoe Idealize.SL.Sem Idealize.ShloMosaic.ValueIdx

namespace Cert.KernelIdeal.Final

open Cert.KernelIdeal Cert.KernelIdeal.Gen Cert.Hist
open Cert.KernelIdeal.BlockCount (blockCount step_apply)

variable (m : (ℓ : Loc nD τ sig) → Buf (Elt Ideal) ℓ) (ρ : Dev nD → PrngReg)

/-- Two rank-4 indices with equal coordinates are equal. -/
theorem ix4_ext {n0 n1 n2 n3 : Nat} {a a' : Fin n0} {b b' : Fin n1} {c c' : Fin n2} {d d' : Fin n3}
    (ha : a.val = a'.val) (hb : b.val = b'.val) (hc : c.val = c'.val) (hd : d.val = d'.val) :
    ix4 a b c d = ix4 a' b' c' d' := by
  obtain rfl := Fin.ext ha
  obtain rfl := Fin.ext hb
  obtain rfl := Fin.ext hc
  obtain rfl := Fin.ext hd
  rfl

/-- The point before an odd point. -/
abbrev prev (t : Fin cfg0.N) : Fin cfg0.N := ⟨t.val - 1, Nat.lt_of_le_of_lt (Nat.sub_le _ _) t.isLt⟩

/-- After an even point the table is the zero table plus that point's block's counts. -/
theorem scratch_even (c : Dev nD) (t : Fin cfg0.N) (h0 : t.val % 2 = 0) (h1 : ¬t.val % 2 = 1) :
    (outsAt0 m c t.val t.isLt).2 = Pieces.step (iblk m c 0 t) (k0_pay2 (F := Ideal)) := by
  rw [outsAt0_A m c t h0 h1]
  exact Pieces.sout_A c (grid0.coords t) (ms0_0 t) (hs0_0 t) (ms0_1 t) (hs0_1 t) scM0_0 (Memref.isWhole_whole _)
    ((hcond0_0 t).mpr h0) (fun h => h1 ((hcond0_1 t).mp h)) (iblk m c 0 t)

/-- At an odd point the output block is the table the point before left plus this point's block's counts, scaled and
    transposed. -/
theorem out_after (c : Dev nD) (t : Fin cfg0.N) (h0 : ¬t.val % 2 = 0) (h1 : t.val % 2 = 1) :
    (outsAt0 m c t.val t.isLt).1
      = k0_pay1 (Pieces.step (iblk m c 0 t) (outsAt0 m c (t.val - 1) (Nat.lt_of_le_of_lt (Nat.sub_le _ _) t.isLt)).2) := by
  rw [outsAt0_B m c t h0 h1]
  exact Pieces.out_B c (grid0.coords t) (ms0_0 t) (hs0_0 t) (ms0_1 t) (hs0_1 t) scM0_0 (Memref.isWhole_whole _)
    (fun h => h0 ((hcond0_0 t).mp h)) ((hcond0_1 t).mpr h1) (iblk m c 0 t)
    (outsAt0 m c (t.val - 1) (Nat.lt_of_le_of_lt (Nat.sub_le _ _) t.isLt)).2

/-- At an odd point the output block is: the zero table, plus the counts of the block of the point before, plus this
    point's block's counts, scaled and transposed. -/
theorem out_odd (c : Dev nD) (t : Fin cfg0.N) (h1 : t.val % 2 = 1) :
    (outsAt0 m c t.val t.isLt).1
      = k0_pay1 (Pieces.step (iblk m c 0 t) (Pieces.step (iblk m c 0 (prev t)) (k0_pay2 (F := Ideal)))) := by
  have h0 : ¬t.val % 2 = 0 := by omega
  have hp := scratch_even m c (prev t) (by show (t.val - 1) % 2 = 0; omega) (by show ¬(t.val - 1) % 2 = 1; omega)
  exact (out_after m c t h0 h1).trans (congrArg (fun z => k0_pay1 (Pieces.step (iblk m c 0 t) z)) hp)

/-- Pixel n of the block of point t is pixel 131072·(t % 2) + n of image t / 2. -/
theorem pixel_eq (c : Dev nD) (t : Fin cfg0.N) (n : Fin 131072) (ch : Fin 3) (b : Fin 32) (hb : b.val = t.val / 2)
    (N : Fin 262144) (hN : N.val = 131072 * (t.val % 2) + n.val) :
    (iblk m c 0 t : Vec Ideal S1x256x512x3 .f32)
        (ix4 (0 : Fin 1) (⟨n.val / 512, by have := n.isLt; omega⟩ : Fin 256) (⟨n.val % 512, by omega⟩ : Fin 512) ch)
      = pix (m ((c : Thread nD τ).loc main_arg0)) b N ch := by
  refine (Windows.iblk_apply m c t _ _ ch).trans ?_
  show (m ((c : Thread nD τ).loc main_arg0) : S32x512x512x3.Idx → Elt Ideal .f32) _
    = (m ((c : Thread nD τ).loc main_arg0) : S32x512x512x3.Idx → Elt Ideal .f32) _
  refine congrArg _ (ix4_ext ?_ ?_ ?_ rfl)
  · show t.val / 2 = b.val
    omega
  · show 256 * (t.val % 2) + n.val / 512 = N.val / 512
    have := n.isLt
    omega
  · show n.val % 512 = N.val % 512
    omega

/-- The counts of the block of point t are the sum of `hit` over its half of image t / 2's pixels. -/
theorem block_eq (c : Dev nD) (t : Fin cfg0.N) (ch : Fin 3) (k : ℕ) (b : Fin 32) (hb : b.val = t.val / 2)
    (f : Fin 131072 → Fin 262144) (hf : ∀ n, (f n).val = 131072 * (t.val % 2) + n.val) :
    blockCount (iblk m c 0 t) ch k = ∑ n : Fin 131072, hit (bin (pix (m ((c : Thread nD τ).loc main_arg0)) b (f n) ch)) k := by
  unfold blockCount
  exact Finset.sum_congr rfl fun n _ => congrArg (fun v => hit (bin v) k) (pixel_eq m c t n ch b hb (f n) (hf n))

/-- At an odd point t, entry (0, k, ch) of the output block is entry (t / 2, k, ch) of the histogram. -/
theorem point_value (c : Dev nD) (t : Fin cfg0.N) (h1 : t.val % 2 = 1) (k : Fin 256) (ch : Fin 3) :
    (outsAt0 m c t.val t.isLt).1 (ix3 (0 : Fin 1) k ch)
      = (hist (m ((c : Thread nD τ).loc main_arg0)) : S32x256x3.Idx → Elt Ideal .f32)
          (ix3 (⟨t.val / 2, by have := Windows.point_lt t; omega⟩ : Fin 32) k ch) := by
  have e := congrFun (out_odd m c t h1) (ix3 (0 : Fin 1) k ch)
  rw [e, Tail.pay1_apply, step_apply, step_apply, Tail.pay2_apply, zero_add]
  show _ = Cert.Hist.count (m ((c : Thread nD τ).loc main_arg0)) (⟨t.val / 2, by have := Windows.point_lt t; omega⟩ : Fin 32) ch k.val
    * Ideal.ofBits .f32 0x36800000#32
  refine congrArg (· * Ideal.ofBits .f32 0x36800000#32) ?_
  unfold Cert.Hist.count
  refine Eq.trans ?_ (Tail.sum_halves _).symm
  exact congrArg₂ (· + ·)
    (block_eq m c (prev t) ch k.val _ (by show t.val / 2 = (t.val - 1) / 2; omega)
      (fun n => ⟨n.val, by have := n.isLt; omega⟩) (fun n => by show n.val = 131072 * ((t.val - 1) % 2) + n.val; omega))
    (block_eq m c t ch k.val _ rfl
      (fun n => ⟨131072 + n.val, by have := n.isLt; omega⟩) (fun n => by show 131072 + n.val = 131072 * (t.val % 2) + n.val; omega))

/-- After the run the result array is the normalised histogram of the input array. -/
theorem final (c : Dev nD) : (dats m 0 c).arrAt 1 cfg0.N = hist (m ((c : Thread nD τ).loc main_arg0)) :=
  Windows.final_of m c _ fun t ht k ch => point_value m c t ht k ch

/-- The kernel's run: every weakly fair execution ends with the result array at the histogram of the input array and
    the input array unchanged. -/
theorem run : θ_run defs (onTc (τ := τ) (main (F := Ideal))) ⟨m, fun _ => 0, ρ⟩ fun r => ∀ c : Dev nD,
      r.2.mem ((c : Thread nD τ).loc main_v0) = hist (m ((c : Thread nD τ).loc main_arg0))
      ∧ r.2.mem ((c : Thread nD τ).loc main_arg0) = m ((c : Thread nD τ).loc main_arg0) :=
  Windows.run_of m ρ (fun c => hist (m ((c : Thread nD τ).loc main_arg0))) (final m)

end Cert.KernelIdeal.Final

end
-- ==== Proof.LibSegments.lean ====
/-
  Segment sums, row gathers and appended self-loops, read at an element.

  (1) A rank-1 scatter-add — operand [N], one signed position per update (scatter indices [E, 1]),
      updates [E] — read at position n is the operand's element plus the sum of the updates whose
      position is n.
  (2) A row gather — operand [N, C], one signed row number per result row (start indices [E, 1]),
      result [E, C] — read at (e, o) is the operand at (the row number clamped into [0, N - 1], o).
  (3) A vector of E0 positions followed by 0, 1, …, N - 1 reads n at place E0 + n.
  (4) A count of the updates landing on a position that at least one update lands on is a real
      number at least one, and the inverse square root of such a number is real.
  All sizes and the index width are arbitrary.
-/
import Idealize.ShloMosaic.PureOps.Ideal
import Idealize.ShloMosaic.PureOps.Ideal.Laws
import Idealize.ShloMosaic.Lib.ValueIdx
import Idealize.ShloMosaic.Lib.Pipeline.Value
import Idealize.ShloMosaic.Lib.IdealHost

noncomputable section

open scoped BigOperators
open Idealize.ShloMosaic Idealize.ShloMosaic.ValueIdx

namespace Segments

/-! ## A scatter's result index, by its coordinates -/

/-- An update index lands on operand index i exactly when, on every operand axis, the window's
    start plus the window coordinate is i's coordinate (as integers): being inside the operand is
    then automatic, and the landing index is determined axis by axis. -/
theorem resultIdx?_eq_some_iff {s si u : Shape} (d : ScatterDims s si u) {w : Nat} (j : u.Idx)
    (idx : IVec si w) (i : s.Idx) :
    d.resultIdx? j idx = some i ↔ ∀ a, d.start j idx a + (d.window j a : ℤ) = ((i a).val : ℤ) := by
  unfold ScatterDims.resultIdx?
  constructor
  · intro h a
    split_ifs at h with hin
    have hi := Option.some.inj h
    have := congrArg (fun f => (f a).val) hi
    simp only at this
    have h0 := (hin a).1
    omega
  · intro h
    have hin : ∀ a, 0 ≤ d.start j idx a + d.window j a ∧ d.start j idx a + d.window j a < s.size a := by
      intro a
      have := h a
      have hlt := (i a).isLt
      omega
    rw [dif_pos hin]
    congr 1
    funext a
    refine Fin.ext ?_
    have := h a
    show (d.start j idx a + d.window j a).toNat = (i a).val
    omega

/-- A rank-1 index set is its one coordinate range … -/
def idxEquiv1 {n0 : Nat} : (⟨1, ![n0]⟩ : Shape).Idx ≃ Fin n0 where
  toFun i := i 0
  invFun p := ix1 p
  left_inv i := (eq_ix1 i).symm
  right_inv _ := rfl

/-- … so a sum over it is the sum over the coordinate. -/
theorem sum_idx1 {M : Type*} [AddCommMonoid M] {n0 : Nat} (f : (⟨1, ![n0]⟩ : Shape).Idx → M) :
    ∑ i, f i = ∑ a : Fin n0, f (ix1 a) := by
  rw [← Equiv.sum_comp (idxEquiv1 (n0 := n0)).symm f]
  rfl

/-! ## Rank 1: operand [N], positions [E, 1], updates [E] -/

/-- The dimension numbers of a scatter of scalars into a rank-1 operand: the updates have no window
    axis; the operand's axis 0 is inserted and is the one the position addresses; the position is
    the length-1 vector on the scatter indices' axis 1. -/
abbrev rows1Dims (N E : Nat) (wf : ScatterDims.WF ⟨1, ![N]⟩ ⟨2, ![E, 1]⟩ ⟨1, ![E]⟩ [] [0] [0] 1) :
    ScatterDims ⟨1, ![N]⟩ ⟨2, ![E, 1]⟩ ⟨1, ![E]⟩ :=
  { updateWindowDims := [], insertedWindowDims := [0], scatterDimsToOperandDims := [0], indexVectorDim := 1, wf := wf }

section Rows1
variable {N E w : Nat} (wf : ScatterDims.WF ⟨1, ![N]⟩ ⟨2, ![E, 1]⟩ ⟨1, ![E]⟩ [] [0] [0] 1)

/-- On operand axis 0 the window of update e starts at the position idx[e, 0], read signed. -/
theorem rows1_start0 (idx : IVec ⟨2, ![E, 1]⟩ w) (e : Fin E) :
    (rows1Dims N E wf).start (ix1 e) idx 0 = (idx (ix2 e (0 : Fin 1))).toInt := by
  unfold ScatterDims.start
  rw [dif_pos (show (0 : Fin 1) ∈ (rows1Dims N E wf).scatterDimsToOperandDims from List.mem_singleton.mpr rfl)]
  have hsi : (rows1Dims N E wf).siIdx (ix1 e) ⟨List.idxOf (0 : Fin 1) (rows1Dims N E wf).scatterDimsToOperandDims,
      List.idxOf_lt_length_iff.2 (List.mem_singleton.mpr rfl)⟩ = ix2 e (0 : Fin 1) := by
    funext b; refine Fin.ext ?_
    match b with
    | ⟨0, _⟩ => rfl
    | ⟨1, _⟩ => rfl
  rw [hsi]

/-- On the inserted operand axis 0 the window coordinate is 0. -/
theorem rows1_window0 (e : Fin E) : (rows1Dims N E wf).window (ix1 e) 0 = 0 := by
  unfold ScatterDims.window
  have h : ¬ (0 : Fin 1) ∈ (rows1Dims N E wf).sKept := (show (0 : Fin 1) ∉ ([] : List (Fin 1)) by decide)
  rw [dif_neg h]

/-- Update e lands on operand element n exactly when its position idx[e, 0], read signed, is n. -/
theorem rows1_resultIdx?_iff (idx : IVec ⟨2, ![E, 1]⟩ w) (e : Fin E) (n : Fin N) :
    (rows1Dims N E wf).resultIdx? (ix1 e) idx = some (ix1 n) ↔
      (idx (ix2 e (0 : Fin 1))).toInt = (n.val : ℤ) := by
  rw [resultIdx?_eq_some_iff, Fin.forall_fin_one, rows1_start0, rows1_window0]
  show ((idx (ix2 e (0 : Fin 1))).toInt + ((0 : ℕ) : ℤ) = (n.val : ℤ)) ↔ _
  omega

/-- THE RANK-1 SCATTER-ADD READ AT n: the operand's element plus the sum of the updates e whose
    position idx[e, 0], read signed, is n. A position outside [0, N) equals no n, so that update is
    dropped. -/
theorem scatterAdd_rows1_apply (x : (⟨1, ![N]⟩ : Shape).Idx → EReal) (idx : IVec ⟨2, ![E, 1]⟩ w)
    (u : (⟨1, ![E]⟩ : Shape).Idx → EReal) (n : Fin N) :
    Host.scatterAdd (F := Ideal) (φ := .f32) (rows1Dims N E wf) x idx u (ix1 n) =
      x (ix1 n) + ∑ e : Fin E, if (idx (ix2 e (0 : Fin 1))).toInt = (n.val : ℤ) then u (ix1 e) else 0 := by
  show Ideal.hostScatterAdd (rows1Dims N E wf) x idx u (ix1 n) = _
  unfold Ideal.hostScatterAdd
  congr 1
  rw [Finset.sum_filter, sum_idx1]
  refine Finset.sum_congr rfl fun e _ => ?_
  simp only [rows1_resultIdx?_iff]

/-- The same reading for ANY record of dimension numbers whose four lists are those of a rank-1
    scatter of scalars (each hypothesis is closed by reflexivity on a record written out field by
    field). -/
theorem scatterAdd_rows1_apply_of_dims (D : ScatterDims ⟨1, ![N]⟩ ⟨2, ![E, 1]⟩ ⟨1, ![E]⟩)
    (h1 : D.updateWindowDims = []) (h2 : D.insertedWindowDims = [0]) (h3 : D.scatterDimsToOperandDims = [0])
    (h4 : D.indexVectorDim = 1) (x : (⟨1, ![N]⟩ : Shape).Idx → EReal) (idx : IVec ⟨2, ![E, 1]⟩ w)
    (u : (⟨1, ![E]⟩ : Shape).Idx → EReal) (n : Fin N) :
    Host.scatterAdd (F := Ideal) (φ := .f32) D x idx u (ix1 n) =
      x (ix1 n) + ∑ e : Fin E, if (idx (ix2 e (0 : Fin 1))).toInt = (n.val : ℤ) then u (ix1 e) else 0 := by
  obtain ⟨uw, iw, sd, iv, wf'⟩ := D
  simp only at h1 h2 h3 h4
  subst h1 h2 h3 h4
  exact scatterAdd_rows1_apply wf' x idx u n

end Rows1

/-! ## Row gather: operand [N, C], row numbers [E, 1], result [E, C] -/

section GatherRows
variable {α : Type}

/-- The dimension numbers of a row gather from a rank-2 operand: the result's axis 1 is the offset
    axis and reads the operand's axis 1 in full (slice sizes [1, C]); the operand's axis 0 is
    collapsed and is the one the row number addresses; the row number is the length-1 vector on the
    start indices' axis 1. -/
abbrev rowsGatherDims (N E C : Nat)
    (wf : GatherDims.WF ⟨2, ![N, C]⟩ ⟨2, ![E, 1]⟩ ⟨2, ![E, C]⟩ [1] [0] [] [0] [] 1 ![1, C]) :
    GatherDims ⟨2, ![N, C]⟩ ⟨2, ![E, 1]⟩ ⟨2, ![E, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (e, o): the operand at row idx[e, 0], read signed and clamped into
    [0, N - 1], and column o. The row read depends neither on o nor on the row length C. -/
theorem gather_rows_apply {N E C w : Nat} (hN : 0 < N)
    (wf : GatherDims.WF ⟨2, ![N, C]⟩ ⟨2, ![E, 1]⟩ ⟨2, ![E, C]⟩ [1] [0] [] [0] [] 1 ![1, C])
    (x : (⟨2, ![N, C]⟩ : Shape).Idx → α) (idx : IVec ⟨2, ![E, 1]⟩ w) (e : Fin E) (o : Fin C) :
    Host.gather (rowsGatherDims N E C wf) x idx (ix2 e o) =
      x (ix2 (⟨min (idx (ix2 e (0 : Fin 1))).toInt.toNat (N - 1), by omega⟩ : Fin N) o) := by
  unfold Host.gather
  congr 1
  funext a
  refine Fin.ext ?_
  match a with
  | ⟨0, _⟩ =>
    -- axis 0: the clamped row number; no batching coordinate; collapsed, so no offset coordinate
    show (rowsGatherDims N E C wf).start (ix2 e o) idx 0 + (rowsGatherDims N E C wf).batchCoord (ix2 e o) 0 +
      (rowsGatherDims N E C wf).offCoord (ix2 e o) 0 = min (idx (ix2 e (0 : Fin 1))).toInt.toNat (N - 1)
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsGatherDims N E C wf).startIndexMap from List.mem_singleton.mpr rfl)]
    have hsi : (rowsGatherDims N E C wf).siIdx (ix2 e o) ⟨List.idxOf (0 : Fin 2) (rowsGatherDims N E C wf).startIndexMap,
        List.idxOf_lt_length_iff.2 (List.mem_singleton.mpr rfl)⟩ = ix2 e (0 : Fin 1) := by
      funext b; refine Fin.ext ?_
      match b with
      | ⟨0, _⟩ => rfl
      | ⟨1, _⟩ => rfl
    rw [hsi]
    rfl
  | ⟨1, _⟩ =>
    -- axis 1: not addressed by the row number, so the slice starts at 0; the offset coordinate is o
    show (rowsGatherDims N E C wf).start (ix2 e o) idx 1 + (rowsGatherDims N E C wf).batchCoord (ix2 e o) 1 +
      (rowsGatherDims N E C wf).offCoord (ix2 e o) 1 = o.val
    rw [GatherDims.batchCoord_eq_zero _ _ _ List.not_mem_nil]
    have hs : (rowsGatherDims N E C wf).start (ix2 e o) idx 1 = 0 := by
      unfold GatherDims.start
      have h : ¬ (1 : Fin 2) ∈ (rowsGatherDims N E C wf).startIndexMap := (show (1 : Fin 2) ∉ ([0] : List (Fin 2)) by decide)
      rw [dif_neg h]
    have ho : (rowsGatherDims N E C wf).offCoord (ix2 e o) 1 = o.val := by
      unfold GatherDims.offCoord
      have h : (1 : Fin 2) ∈ (rowsGatherDims N E C wf).sKept := (show (1 : Fin 2) ∈ ([1] : List (Fin 2)) by decide)
      rw [dif_pos h]
      rfl
    rw [hs, ho]
    omega

/-- The same reading for ANY record of dimension numbers whose seven fields are those of a row
    gather (each hypothesis is closed by reflexivity on a record written out field by field). -/
theorem gather_rows_apply_of_dims {N E C w : Nat} (hN : 0 < N)
    (D : GatherDims ⟨2, ![N, C]⟩ ⟨2, ![E, 1]⟩ ⟨2, ![E, C]⟩)
    (h1 : D.offsetDims = [1]) (h2 : D.collapsedSliceDims = [0]) (h3 : D.operandBatchingDims = [])
    (h4 : D.startIndicesBatchingDims = []) (h5 : D.startIndexMap = [0]) (h6 : D.indexVectorDim = 1)
    (h7 : D.sliceSizes = ![1, C])
    (x : (⟨2, ![N, C]⟩ : Shape).Idx → α) (idx : IVec ⟨2, ![E, 1]⟩ w) (e : Fin E) (o : Fin C) :
    Host.gather D x idx (ix2 e o) =
      x (ix2 (⟨min (idx (ix2 e (0 : Fin 1))).toInt.toNat (N - 1), by omega⟩ : Fin N) o) := by
  obtain ⟨od, cd, ob, sb, sm, iv, ss, wf'⟩ := D
  simp only at h1 h2 h3 h4 h5 h6 h7
  subst h1 h2 h3 h4 h5 h6 h7
  exact gather_rows_apply hN wf' x idx e o

end GatherRows

/-! ## Positions followed by 0, 1, …, N - 1 -/

/-- A 32-bit word holding a natural number below 2 ^ 31 reads that number when read signed. -/
theorem toInt_ofNat32 (k : Nat) (hk : k < 2 ^ 31) : (BitVec.ofNat 32 k).toInt = (k : ℤ) := by
  rw [BitVec.toInt_eq_toNat_cond, BitVec.toNat_ofNat]
  have h : k % 2 ^ 32 = k := Nat.mod_eq_of_lt (by omega)
  rw [h, if_pos (by omega)]

/-- A vector of E0 positions with 0, 1, …, N - 1 appended, laid out as a column [E0 + N, 1], reads
    n at place E0 + n, as a signed integer: the appended part is every position once. -/
theorem selfloop_toInt (E0 N Et : Nat) (hEt : E0 + N = Et) (hN31 : N < 2 ^ 31) (a : IVec ⟨1, ![E0]⟩ 32)
    (hc : Shape.Concatenates [(⟨1, ![E0]⟩ : Shape), ⟨1, ![N]⟩] ⟨1, ![Et]⟩ 0)
    (hb : (⟨1, ![Et]⟩ : Shape).BroadcastsInDim ⟨2, ![Et, 1]⟩ ![0]) (n : Fin N) :
    (broadcastInDim ⟨2, ![Et, 1]⟩ ![0] hb
      (concatenate ⟨1, ![Et]⟩ 0 [⟨⟨1, ![E0]⟩, a⟩, ⟨⟨1, ![N]⟩, iotaInDim ⟨1, ![N]⟩ 32 0⟩] hc)
      (ix2 (⟨E0 + n.val, by omega⟩ : Fin Et) (0 : Fin 1))).toInt = (n.val : ℤ) := by
  have hn := n.isLt
  have e1 := broadcastInDim_apply (s := ⟨1, ![Et]⟩) (t := ⟨2, ![Et, 1]⟩) ![0] hb
    (concatenate ⟨1, ![Et]⟩ 0 [⟨⟨1, ![E0]⟩, a⟩, ⟨⟨1, ![N]⟩, iotaInDim ⟨1, ![N]⟩ 32 0⟩] hc)
    (ix2 (⟨E0 + n.val, by omega⟩ : Fin Et) (0 : Fin 1)) (ix1 (⟨E0 + n.val, by omega⟩ : Fin Et)) (fun b => by
      obtain rfl : b = 0 := Subsingleton.elim _ _
      show E0 + n.val = if Et = 1 then 0 else E0 + n.val
      split_ifs with h1
      · omega
      · rfl)
  have e2 := concatenate_pair_apply_right (t := ⟨1, ![Et]⟩) (s₁ := ⟨1, ![E0]⟩) (s₂ := ⟨1, ![N]⟩) (0 : Fin 1)
    a (iotaInDim ⟨1, ![N]⟩ 32 0) hc (ix1 (⟨E0 + n.val, by omega⟩ : Fin Et)) rfl rfl (ix1 n)
    (fun b hb' => absurd (Subsingleton.elim _ _) hb')
    (by show n.val + E0 = E0 + n.val; omega)
  rw [e1, e2, iotaInDim_apply]
  exact toInt_ofNat32 n.val (by omega)

/-! ## Counting the updates that land on a position -/

/-- The coercion from the reals to the extended reals goes through a finite sum. -/
theorem coe_finset_sum {ι : Type*} (s : Finset ι) (f : ι → ℝ) :
    ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The number of updates whose position is n — the scatter-add of ones into zeros read at n —
    is a real number, and at least one as soon as some update's position is n. -/
theorem degree_real_pos {N E w : Nat} (idx : IVec ⟨2, ![E, 1]⟩ w) (n : Fin N)
    (hself : ∃ e : Fin E, (idx (ix2 e (0 : Fin 1))).toInt = (n.val : ℤ)) :
    ∃ r : ℝ, 1 ≤ r ∧
      (0 : EReal) + ∑ e : Fin E, (if (idx (ix2 e (0 : Fin 1))).toInt = (n.val : ℤ) then (1 : EReal) else 0) = (r : EReal) := by
  obtain ⟨e0, he0⟩ := hself
  refine ⟨∑ e : Fin E, (if (idx (ix2 e (0 : Fin 1))).toInt = (n.val : ℤ) then (1 : ℝ) else 0), ?_, ?_⟩
  · have hnn : ∀ e ∈ (Finset.univ : Finset (Fin E)),
        (0 : ℝ) ≤ (if (idx (ix2 e (0 : Fin 1))).toInt = (n.val : ℤ) then (1 : ℝ) else 0) := by
      intro e _
      split_ifs
      · exact zero_le_one
      · exact le_refl _
    have h := Finset.single_le_sum hnn (Finset.mem_univ e0)
    rw [if_pos he0] at h
    exact h
  · rw [zero_add, coe_finset_sum]
    refine Finset.sum_congr rfl fun e _ => ?_
    split_ifs
    · exact EReal.coe_one.symm
    · exact EReal.coe_zero.symm

/-- The inverse square root of a real number at least one is a real number. -/
theorem rsqrt_real_of_pos (r : ℝ) (hr : 1 ≤ r) : ∃ s : ℝ, Ideal.rsqrt (r : EReal) = (s : EReal) := by
  refine ⟨(Real.sqrt r)⁻¹, ?_⟩
  rw [Ideal.rsqrt_coe, if_neg (by linarith), if_neg (by linarith)]

end Segments

end
-- ==== Proof.RefValue.lean ====
/-
  The reference program's result, read entry by entry, is the normalised histogram.
-/
import proofs.«162160_j31250182045884_2_alg».proof.Proof.Gen.ReferenceIdeal.Read
import proofs.«162160_j31250182045884_2_alg».proof.Proof.Spec
import proofs.«162160_j31250182045884_2_alg».proof.Proof.LibSegments

noncomputable section

namespace Cert.Hist.Ref

open scoped BigOperators
open Cert.ReferenceIdeal Cert.ReferenceIdeal.Read Idealize.ShloMosaic Idealize.ShloMosaic.ValueIdx

/-! ## Words: the clamp's range and the segment number -/

/-- A word clamped below by 0 and above by 255 (both signed) is a number at most 255. -/
theorem clamp_toNat_le (z : BitVec 32) : (IntOp.minsi 255#32 (IntOp.maxsi 0#32 z)).toNat ≤ 255 := by
  have h255 : (255#32 : BitVec 32).toInt = 255 := by decide
  have h0 : (0#32 : BitVec 32).toInt = 0 := by decide
  have hz := BitVec.toInt_eq_toNat_cond z
  have hzlt := z.isLt
  unfold IntOp.minsi IntOp.maxsi
  by_cases h1 : z.slt 0#32 = true
  · rw [if_pos h1]
    by_cases h2 : (255#32 : BitVec 32).slt 0#32 = true
    · rw [if_pos h2]; decide
    · rw [if_neg h2]; decide
  · rw [if_neg h1]
    have h1' : ¬ z.toInt < 0 := by
      intro h; exact h1 (by rw [BitVec.slt_eq_decide, h0]; exact decide_eq_true h)
    by_cases h2 : (255#32 : BitVec 32).slt z = true
    · rw [if_pos h2]; decide
    · rw [if_neg h2]
      have h2' : ¬ (255 : ℤ) < z.toInt := by
        intro h; exact h2 (by rw [BitVec.slt_eq_decide, h255]; exact decide_eq_true h)
      split_ifs at hz <;> omega

/-- The bin of a value is a number at most 255. -/
theorem bin_toNat_le (v : EReal) : (bin v).toNat ≤ 255 := clamp_toNat_le _

/-- The segment number of image `b`, channel `c` and a bin word `w` at most 255, computed in 32-bit words, read signed,
    is `(3b + c)·256 + w`. -/
theorem seg_toInt (b c : ℕ) (hb : b < 32) (hc : c < 3) (w : BitVec 32) (hw : w.toNat ≤ 255) :
    (IntOp.addi (IntOp.muli (IntOp.addi (IntOp.muli (BitVec.ofNat 32 b) 3#32) (BitVec.ofNat 32 c)) 256#32) w).toInt
      = (((b * 3 + c) * 256 + w.toNat : ℕ) : ℤ) := by
  have hn : (IntOp.addi (IntOp.muli (IntOp.addi (IntOp.muli (BitVec.ofNat 32 b) 3#32) (BitVec.ofNat 32 c)) 256#32) w).toNat
      = (b * 3 + c) * 256 + w.toNat := by
    unfold IntOp.addi IntOp.muli
    simp only [BitVec.toNat_add, BitVec.toNat_mul, BitVec.toNat_ofNat]
    omega
  rw [BitVec.toInt_eq_toNat_cond, hn, if_pos (by omega)]

/-- A bin word is the number `k` exactly when its value is `k`. -/
theorem eq_ofNat_iff (w : BitVec 32) (k : ℕ) (hk : k < 256) : w = BitVec.ofNat 32 k ↔ w.toNat = k := by
  constructor
  · intro h; rw [h, BitVec.toNat_ofNat]; omega
  · intro h; apply BitVec.eq_of_toNat_eq; rw [BitVec.toNat_ofNat, h]; omega

/-! ## The reference's stages at an entry -/

/-- The clipped bin array at a pixel is the specification's bin of the pixel's value. -/
theorem v4_apply (x0 : FVec Ideal SIn .f32) (i : SIn.Idx) :
    val_main_v4 (F := Ideal) x0 i = bin (x0 i) := by
  rw [val_main_v4_apply, val_main_call0_v4_apply, val_main_call0_v3_apply, val_main_c_0_apply,
    val_main_call0_v2_apply, val_main_call0_v1_apply, val_main_call0_v0_apply, val_main_c_apply,
    val_main_v3_apply, val_main_v2_apply, val_main_v1_apply, val_main_v0_apply, val_main_cst_apply]
  rfl

/-- The segment-number array at flat position `e`: image `e / 786432`, pixel `e / 3 % 262144`, channel `e % 3`. -/
theorem v22_apply (x0 : FVec Ideal SIn .f32) (e : Fin 25165824) :
    val_main_v22 (F := Ideal) x0 (ix2 e (0 : Fin 1)) =
      IntOp.addi (IntOp.muli (IntOp.addi (IntOp.muli (BitVec.ofNat 32 (e.val / 786432)) 3#32)
        (BitVec.ofNat 32 (e.val % 3))) 256#32)
        (bin (pix x0 ⟨e.val / 786432, by have := e.isLt; omega⟩ ⟨e.val / 3 % 262144, by omega⟩ ⟨e.val % 3, by omega⟩)) := by
  rw [val_main_v22_apply, val_main_v19_apply, val_main_v18_apply, val_main_v17_apply, val_main_v15_apply,
    val_main_v14_apply, val_main_c_2_apply, val_main_v13_apply, val_main_v12_apply, val_main_v10_apply,
    val_main_v9_apply, val_main_v11_apply, val_main_v8_apply, val_main_v7_apply, val_main_c_1_apply,
    val_main_v6_apply, val_main_v5_apply, val_main_v16_apply, v4_apply]
  congr 2
  unfold pix
  congr 1
  funext a
  refine Fin.ext ?_
  have := e.isLt
  match a with
  | ⟨0, _⟩ => show ((e.val / 786432 * 262144 + e.val / 3 % 262144) * 3 + e.val % 3) / 786432 = e.val / 786432; omega
  | ⟨1, _⟩ => show ((e.val / 786432 * 262144 + e.val / 3 % 262144) * 3 + e.val % 3) / 1536 % 512 = e.val / 3 % 262144 / 512; omega
  | ⟨2, _⟩ => show ((e.val / 786432 * 262144 + e.val / 3 % 262144) * 3 + e.val % 3) / 3 % 512 = e.val / 3 % 262144 % 512; omega
  | ⟨3, _⟩ => show ((e.val / 786432 * 262144 + e.val / 3 % 262144) * 3 + e.val % 3) % 3 = e.val % 3; omega

/-- The word `0x3F800000` is the real `1`. -/
theorem ofBits_one : Ideal.ofBits .f32 0x3F800000#32 = (1 : EReal) := by
  simp [Ideal.ofBits, Ideal.ieee, -EReal.coe_mul]; norm_num

/-- The segment number at flat position `e`, read signed: `(3·image + channel)·256 + bin`. -/
theorem v22_toInt (x0 : FVec Ideal SIn .f32) (e : Fin 25165824) :
    (val_main_v22 (F := Ideal) x0 (ix2 e (0 : Fin 1))).toInt =
      ((((e.val / 786432) * 3 + e.val % 3) * 256 +
        (bin (pix x0 ⟨e.val / 786432, by have := e.isLt; omega⟩ ⟨e.val / 3 % 262144, by omega⟩ ⟨e.val % 3, by omega⟩)).toNat : ℕ) : ℤ) := by
  have := e.isLt
  rw [v22_apply, seg_toInt _ _ (by omega) (by omega) _ (bin_toNat_le _)]

/-- The scatter-add of ones into zeros at segment `n` is the number of flat positions whose segment number is `n`. -/
theorem v23_apply (x0 : FVec Ideal SIn .f32) (n : Fin 24576) :
    val_main_v23 (F := Ideal) x0 (ix1 n) =
      0 + ∑ e : Fin 25165824,
        if (val_main_v22 (F := Ideal) x0 (ix2 e (0 : Fin 1))).toInt = (n.val : ℤ) then (1 : EReal) else 0 := by
  unfold val_main_v23
  refine (Segments.scatterAdd_rows1_apply_of_dims (N := 24576) (E := 25165824) (w := 32)
    scatter_S24576_S25165824x1_S25165824_n_0_0_1 rfl rfl rfl rfl (val_main_v21 (F := Ideal))
    (val_main_v22 (F := Ideal) x0) (val_main_v20 (F := Ideal)) n).trans ?_
  rw [val_main_v21_apply, val_main_cst_4_apply, Ideal.ofBits_def, Ideal.ofBits_zero_f32]
  refine congrArg (fun s : EReal => 0 + s) (Finset.sum_congr rfl fun e _ => ?_)
  rw [val_main_v20_apply, val_main_cst_3_apply, Ideal.ofBits_def, ofBits_one]

/-- The positions whose segment number is that of `(b, c, k)` are the pixels of image `b` whose channel-`c` value is in
    bin `k`: position `(b·262144 + n)·3 + c` for pixel `n`, and no other position. -/
theorem count_eq (x0 : FVec Ideal SIn .f32) (b : Fin 32) (k : Fin 256) (c : Fin 3) :
    (∑ e : Fin 25165824,
      if (val_main_v22 (F := Ideal) x0 (ix2 e (0 : Fin 1))).toInt = (((b.val * 3 + c.val) * 256 + k.val : ℕ) : ℤ)
        then (1 : EReal) else 0) = count x0 b c k.val := by
  have hb := b.isLt
  have hc := c.isLt
  have hk := k.isLt
  unfold count
  symm
  refine Fintype.sum_of_injective
    (fun n : Fin 262144 => (⟨(b.val * 262144 + n.val) * 3 + c.val, by have := n.isLt; omega⟩ : Fin 25165824)) ?_ _ _ ?_ ?_
  · intro n n' h
    have h' := congrArg Fin.val h
    simp only at h'
    exact Fin.ext (by omega)
  · intro e he
    have hlt := e.isLt
    rw [if_neg]
    intro h
    apply he
    rw [v22_toInt, Nat.cast_inj] at h
    have hle := bin_toNat_le (pix x0 ⟨e.val / 786432, by omega⟩ ⟨e.val / 3 % 262144, by omega⟩ ⟨e.val % 3, by omega⟩)
    generalize (bin (pix x0 ⟨e.val / 786432, by omega⟩ ⟨e.val / 3 % 262144, by omega⟩ ⟨e.val % 3, by omega⟩)).toNat = t at h hle
    refine ⟨⟨e.val / 3 % 262144, by omega⟩, Fin.ext ?_⟩
    show (b.val * 262144 + e.val / 3 % 262144) * 3 + c.val = e.val
    omega
  · intro n
    have hn := n.isLt
    unfold hit
    refine if_congr ?_ rfl rfl
    rw [eq_ofNat_iff _ _ hk, v22_toInt, Nat.cast_inj]
    have hp : pix x0 ⟨((b.val * 262144 + n.val) * 3 + c.val) / 786432, by omega⟩
        ⟨((b.val * 262144 + n.val) * 3 + c.val) / 3 % 262144, by omega⟩ ⟨((b.val * 262144 + n.val) * 3 + c.val) % 3, by omega⟩
        = pix x0 b n c := by
      congr 1 <;> exact Fin.ext (by simp only; omega)
    show (bin (pix x0 b n c)).toNat = k.val ↔ (((b.val * 262144 + n.val) * 3 + c.val) / 786432 * 3 + ((b.val * 262144 + n.val) * 3 + c.val) % 3) * 256 +
      (bin (pix x0 ⟨((b.val * 262144 + n.val) * 3 + c.val) / 786432, by omega⟩
        ⟨((b.val * 262144 + n.val) * 3 + c.val) / 3 % 262144, by omega⟩ ⟨((b.val * 262144 + n.val) * 3 + c.val) % 3, by omega⟩)).toNat
        = (b.val * 3 + c.val) * 256 + k.val
    rw [hp]
    have hle := bin_toNat_le (pix x0 b n c)
    omega

/-! ## The result -/

/-- The reference's result is the normalised histogram. -/
theorem ref_eq (x0 : (⟨Cert.ReferenceIdeal.S32x512x512x3, .f32⟩ : BufTy).Contents (Elt Ideal)) :
    Cert.ReferenceIdeal.Read.val_main_v27 (F := Ideal) x0 = Cert.Hist.hist x0 := by
  funext i
  obtain ⟨b, k, c, rfl⟩ : ∃ (b : Fin 32) (k : Fin 256) (c : Fin 3), i = ix3 b k c := ⟨i 0, i 1, i 2, eq_ix3 i⟩
  have hb := b.isLt
  have hc := c.isLt
  have hk := k.isLt
  rw [val_main_v27_apply, val_main_v26_apply, val_main_v25_apply, val_main_cst_5_apply, val_main_v24_apply]
  have hidx : idx_main_v24 (idx_main_v27 (ix3 b k c)) = ix1 (⟨(b.val * 3 + c.val) * 256 + k.val, by omega⟩ : Fin 24576) := by
    funext a
    match a with
    | ⟨0, _⟩ => rfl
  rw [hidx, v23_apply, count_eq, zero_add, hist_apply, Ideal.hostDivf_def, Ideal.ofBits_def, div_pixels]

end Cert.Hist.Ref

end
-- ==== Proof.Claims.lean ====
/-
  The certificate's claims, assembled. The three frame claims are the generated runs; the idealization rewrote nothing;
  and the value claim holds as soon as the idealized kernel is known to end with the normalised histogram of its
  argument in its result array: the reference ends with the same function of an argument that agrees.
-/
import proofs.«162160_j31250182045884_2_alg».proof.Defs
import proofs.«162160_j31250182045884_2_alg».proof.Proof.Gen.Kernel.Frame
import proofs.«162160_j31250182045884_2_alg».proof.Proof.Gen.KernelIdeal.Frame
import proofs.«162160_j31250182045884_2_alg».proof.Proof.Gen.Pre_finite_inputs
import proofs.«162160_j31250182045884_2_alg».proof.Proof.Gen.ReferenceIdeal.Run
import proofs.«162160_j31250182045884_2_alg».proof.Proof.Gen.ReferenceIdeal.Read
import proofs.«162160_j31250182045884_2_alg».proof.Proof.RefValue
import proofs.«162160_j31250182045884_2_alg».proof.Proof.Spec

noncomputable section

open Idealize.ShloMosaic Idealize.ShloMosaic.TcCoe Idealize.SL.Sem

namespace Cert.Proof.HistClaims

theorem frame_k : Cert.frame_Kernel := fun m ρ _ => Cert.Kernel.Gen.frame m ρ

theorem frame_ki : Cert.frame_KernelIdeal := fun m ρ _ => Cert.KernelIdeal.Gen.frame m ρ

/-- The reference's run with its result dropped. -/
theorem frame_ri : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- If, on every device, the idealized kernel ends with the normalised histogram of its argument array in its result
    array and the argument unchanged, then it and the reference, from memories agreeing on the argument, end with equal
    results: the reference's result is the same function of its argument. -/
theorem algebraic_of
    (hrun : ∀ (m : (ℓ : Loc Cert.KernelIdeal.nD Cert.KernelIdeal.τ Cert.KernelIdeal.sig) → Buf (Elt Ideal) ℓ)
      (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v0)
            = Cert.Hist.hist (m ((c.tc : Thread Cert.KernelIdeal.nD Cert.KernelIdeal.τ).loc Cert.KernelIdeal.main_arg0))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))) :
    Cert.algebraic_KernelIdeal_ReferenceIdeal := by
  intro m ρ m' ρ' _ hagree
  refine ⟨fun c => Cert.Hist.hist (m ((c.tc : Thread Cert.KernelIdeal.nD Cert.KernelIdeal.τ).loc Cert.KernelIdeal.main_arg0)),
    hrun m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v27_eq, Cert.Hist.Ref.ref_eq, hagree c]

/-- The five claims together, under the generated witnesses of the programs' stated facts, from the same hypothesis. -/
theorem claim_of
    (hrun : ∀ (m : (ℓ : Loc Cert.KernelIdeal.nD Cert.KernelIdeal.τ Cert.KernelIdeal.sig) → Buf (Elt Ideal) ℓ)
      (ρ : Dev Cert.KernelIdeal.nD → PrngReg),
      θ_run (Cert.KernelIdeal.defs (F := Ideal)) (onTc (τ := Cert.KernelIdeal.τ) (Cert.KernelIdeal.main (F := Ideal)))
        ⟨m, fun _ => 0, ρ⟩ (fun r => ∀ c : Dev Cert.KernelIdeal.nD,
          r.2.mem ((c.tc : Thread Cert.KernelIdeal.nD Cert.KernelIdeal.τ).loc Cert.KernelIdeal.main_v0)
            = Cert.Hist.hist (m ((c.tc : Thread Cert.KernelIdeal.nD Cert.KernelIdeal.τ).loc Cert.KernelIdeal.main_arg0))
          ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0))) :
    Cert.Claim :=
  ⟨Cert.Kernel.Gen.facts, Cert.KernelIdeal.Gen.facts, Cert.ReferenceIdeal.Gen.facts, Cert.Pre_finite_inputs.Gen.facts,
    frame_k, frame_ki, frame_ri, preserves, algebraic_of hrun⟩

end Cert.Proof.HistClaims

end
-- ==== Proof.lean ====
/-
  A normalised histogram on the extended reals: the kernel and its reference compute the same function.

  Input: 32 images of 512 × 512 pixels with 3 channels. A value v falls in bin ⌊256·v⌋, read as a 32-bit integer and
  clamped into [0, 255]; entry (b, k, c) of the result is the number of pixels of image b whose channel-c value falls in
  bin k, divided by the number of pixels 2¹⁸ (`Cert.Hist.hist`, Proof/Spec.lean).

  The kernel visits each image in two halves of 256 rows. For each half and channel it splits every bin into its two
  4-bit nibbles, writes each nibble as a row of 16 zeros and ones, and multiplies the two 131072 × 16 arrays over the
  pixel axis: entry (h, l) of the product is the number of pixels with nibbles (h, l), that is with bin 16·h + l, because
  a bin lies in [0, 255] (Proof/Bits.lean, Proof/OneHot.lean, Proof/BlockCount.lean). The counts of the two halves are
  added in a table carried from the first half to the second; after the second half the table times 2⁻¹⁸, transposed, is
  the image's row of the result (Proof/Pieces.lean, Proof/Tail.lean, Proof/KernelValue.lean), and these rows tile the
  result array (Proof/Windows.lean).

  The reference gives pixel (b, n, c) the segment number (3·b + c)·256 + bin, adds a one into a zero vector at every
  pixel's segment number, and divides by 2¹⁸: entry (3·b + c)·256 + k of the vector is the number of pixels of image b
  and channel c with bin k (Proof/RefValue.lean). Multiplying by the float 2⁻¹⁸ and dividing by the float 2¹⁸ are the
  same operation on every extended real, so no finiteness of the input is used. The idealization rewrote no operation of
  the kernel, and the three frame claims are the generated runs (Proof/Claims.lean).
-/
import proofs.«162160_j31250182045884_2_alg».proof.Defs
import proofs.«162160_j31250182045884_2_alg».proof.Proof.Gen.Kernel
import proofs.«162160_j31250182045884_2_alg».proof.Proof.Gen.Kernel.Skeleton
import proofs.«162160_j31250182045884_2_alg».proof.Proof.Gen.Kernel.Launch
import proofs.«162160_j31250182045884_2_alg».proof.Proof.Gen.Kernel.Points
import proofs.«162160_j31250182045884_2_alg».proof.Proof.Gen.Kernel.Frame
import proofs.«162160_j31250182045884_2_alg».proof.Proof.Gen.KernelIdeal
import proofs.«162160_j31250182045884_2_alg».proof.Proof.Gen.KernelIdeal.Skeleton
import proofs.«162160_j31250182045884_2_alg».proof.Proof.Gen.KernelIdeal.Launch
import proofs.«162160_j31250182045884_2_alg».proof.Proof.Gen.KernelIdeal.Points
import proofs.«162160_j31250182045884_2_alg».proof.Proof.Gen.KernelIdeal.Frame
import proofs.«162160_j31250182045884_2_alg».proof.Proof.Gen.ReferenceIdeal
import proofs.«162160_j31250182045884_2_alg».proof.Proof.Gen.Pre_finite_inputs
import proofs.«162160_j31250182045884_2_alg».proof.Proof.Gen.KernelIdeal.Value
import proofs.«162160_j31250182045884_2_alg».proof.Proof.Gen.ReferenceIdeal.Run
import proofs.«162160_j31250182045884_2_alg».proof.Proof.Gen.ReferenceIdeal.Read
import proofs.«162160_j31250182045884_2_alg».proof.Proof.KernelValue
import proofs.«162160_j31250182045884_2_alg».proof.Proof.Claims
import Idealize.ShloMosaic.Adequacy
import Idealize.ShloMosaic.Init

noncomputable section

namespace Cert.Proof

open Idealize.ShloMosaic Idealize.SL.Sem Cert.Kernel

/-- The five claims: the three frames, the idealization's (empty) ledger, and the equality of the two results, from the
    kernel's run ending at the normalised histogram of its argument. -/
theorem claim : Cert.Claim := Cert.Proof.HistClaims.claim_of fun m ρ => Cert.KernelIdeal.Final.run m ρ

end Cert.Proof

end
